-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S4x128x64 : Shape := ⟨3, ![4, 128, 64]⟩
abbrev S4x64x16 : Shape := ⟨3, ![4, 64, 16]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x128x64 : S_.BroadcastsInDim S4x128x64 (![] : Fin 0 → Fin S4x128x64.rank)
  reducesTo_S4x128x64_S_d0_1_2 : S4x128x64.ReducesTo [0, 1, 2] S_
  bcast_S_S4x64x16 : S_.BroadcastsInDim S4x64x16 (![] : Fin 0 → Fin S4x64x16.rank)
  reducesTo_S4x64x16_S_d0_1_2 : S4x64x16.ReducesTo [0, 1, 2] S_

variable [Facts]

def fn_part1 {F : FTy → Type} [FloatOps F] (main_v13 : IVec S_ 1) (main_v16 : IVec S4x64x16 1) : IVec S_ 1 :=
  let main_c_5 : IVec S_ 1 := constantI S_ 1 1#1
  let main_v17 : IVec S_ 1 := (fun x v => Host.reduce IntOp.andi x v reducesTo_S4x64x16_S_d0_1_2 h_S_) main_v16 main_c_5
  let main_v18 : IVec S_ 1 := andi main_v13 main_v17
  main_v18

def fn {F : FTy → Type} [FloatOps F] (main_arg0 : FVec F S4x4096x128 .f32) (main_arg1 : FVec F S4x4096x4096 .f32) (main_arg2 : FVec F S4x128x64 .f32) (main_arg3 : FVec F S4x64x16 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x128x64 .f32 := Host.absf main_arg2
  let main_cst_2 : FVec F S_ .f32 := constant S_ .f32 0x7F800000#32
  let main_v10 : FVec F S4x128x64 .f32 := broadcastInDim S4x128x64 ![] bcast_S_S4x128x64 main_cst_2
  let main_v11 : IVec S4x128x64 1 := cmpf .olt main_v9 main_v10
  let main_c_3 : IVec S_ 1 := constantI S_ 1 1#1
  let main_v12 : IVec S_ 1 := (fun x v => Host.reduce IntOp.andi x v reducesTo_S4x128x64_S_d0_1_2 h_S_) main_v11 main_c_3
  let main_v13 : IVec S_ 1 := andi main_v8 main_v12
  let main_v14 : FVec F S4x64x16 .f32 := Host.absf main_arg3
  let main_cst_4 : FVec F S_ .f32 := constant S_ .f32 0x7F800000#32
  let main_v15 : FVec F S4x64x16 .f32 := broadcastInDim S4x64x16 ![] bcast_S_S4x64x16 main_cst_4
  let main_v16 : IVec S4x64x16 1 := cmpf .olt main_v14 main_v15
  fn_part1 (F := F) main_v13 main_v16
-- ==== Kernel.lean ====
abbrev S4x4096x128 : Shape := ⟨3, ![4, 4096, 128]⟩
abbrev S4x4096x4096 : Shape := ⟨3, ![4, 4096, 4096]⟩
abbrev S4x128x64 : Shape := ⟨3, ![4, 128, 64]⟩
abbrev S4x64x16 : Shape := ⟨3, ![4, 64, 16]⟩
abbrev S4x4096x64 : Shape := ⟨3, ![4, 4096, 64]⟩
abbrev S1x4096x128 : Shape := ⟨3, ![1, 4096, 128]⟩
abbrev S1x128x64 : Shape := ⟨3, ![1, 128, 64]⟩
abbrev S1x4096x64 : Shape := ⟨3, ![1, 4096, 64]⟩
abbrev S4096x128 : Shape := ⟨2, ![4096, 128]⟩
abbrev S128x64 : Shape := ⟨2, ![128, 64]⟩
abbrev S4096x64 : Shape := ⟨2, ![4096, 64]⟩
abbrev S1x1024x4096 : Shape := ⟨3, ![1, 1024, 4096]⟩
abbrev S1x1024x64 : Shape := ⟨3, ![1, 1024, 64]⟩
abbrev S1024x4096 : Shape := ⟨2, ![1024, 4096]⟩
abbrev S1024x64 : Shape := ⟨2, ![1024, 64]⟩
abbrev S4x4096x16 : Shape := ⟨3, ![4, 4096, 16]⟩
abbrev S1x64x16 : Shape := ⟨3, ![1, 64, 16]⟩
abbrev S1x4096x16 : Shape := ⟨3, ![1, 4096, 16]⟩
abbrev S64x16 : Shape := ⟨2, ![64, 16]⟩
abbrev S4096x16 : Shape := ⟨2, ![4096, 16]⟩
abbrev S1x1024x16 : Shape := ⟨3, ![1, 1024, 16]⟩
abbrev S1024x16 : Shape := ⟨2, ![1024, 16]⟩
abbrev S1x2048x16 : Shape := ⟨3, ![1, 2048, 16]⟩
abbrev S1x2048x2048 : Shape := ⟨3, ![1, 2048, 2048]⟩
abbrev S2048x16 : Shape := ⟨2, ![2048, 16]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 9
  | .vmem => 30
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x128x64, .f32⟩
  | .hbm, ⟨3, _⟩ => ⟨S4x64x16, .f32⟩
  | .hbm, ⟨4, _⟩ => ⟨S4x4096x64, .f32⟩
  | .hbm, ⟨5, _⟩ => ⟨S4x4096x64, .f32⟩
  | .hbm, ⟨6, _⟩ => ⟨S4x4096x16, .f32⟩
  | .hbm, ⟨7, _⟩ => ⟨S4x4096x16, .f32⟩
  | .hbm, ⟨8, _⟩ => ⟨S4x4096x4096, .f32⟩
  | .local _ .vmem, ⟨0, _⟩ => ⟨S1x4096x128, .f32⟩
  | .local _ .vmem, ⟨1, _⟩ => ⟨S1x4096x128, .f32⟩
  | .local _ .vmem, ⟨2, _⟩ => ⟨S1x128x64, .f32⟩
  | .local _ .vmem, ⟨3, _⟩ => ⟨S1x128x64, .f32⟩
  | .local _ .vmem, ⟨4, _⟩ => ⟨S1x4096x64, .f32⟩
  | .local _ .vmem, ⟨5, _⟩ => ⟨S1x4096x64, .f32⟩
  | .local _ .vmem, ⟨6, _⟩ => ⟨S1x1024x4096, .f32⟩
  | .local _ .vmem, ⟨7, _⟩ => ⟨S1x1024x4096, .f32⟩
  | .local _ .vmem, ⟨8, _⟩ => ⟨S1x4096x64, .f32⟩
  | .local _ .vmem, ⟨9, _⟩ => ⟨S1x4096x64, .f32⟩
  | .local _ .vmem, ⟨10, _⟩ => ⟨S1x1024x64, .f32⟩
  | .local _ .vmem, ⟨11, _⟩ => ⟨S1x1024x64, .f32⟩
  | .local _ .vmem, ⟨12, _⟩ => ⟨S1x4096x64, .f32⟩
  | .local _ .vmem, ⟨13, _⟩ => ⟨S1x4096x64, .f32⟩
  | .local _ .vmem, ⟨14, _⟩ => ⟨S1x64x16, .f32⟩
  | .local _ .vmem, ⟨15, _⟩ => ⟨S1x64x16, .f32⟩
  | .local _ .vmem, ⟨16, _⟩ => ⟨S1x4096x16, .f32⟩
  | .local _ .vmem, ⟨17, _⟩ => ⟨S1x4096x16, .f32⟩
  | .local _ .vmem, ⟨18, _⟩ => ⟨S1x1024x4096, .f32⟩
  | .local _ .vmem, ⟨19, _⟩ => ⟨S1x1024x4096, .f32⟩
  | .local _ .vmem, ⟨20, _⟩ => ⟨S1x4096x16, .f32⟩
  | .local _ .vmem, ⟨21, _⟩ => ⟨S1x4096x16, .f32⟩
  | .local _ .vmem, ⟨22, _⟩ => ⟨S1x1024x16, .f32⟩
  | .local _ .vmem, ⟨23, _⟩ => ⟨S1x1024x16, .f32⟩
  | .local _ .vmem, ⟨24, _⟩ => ⟨S1x2048x16, .f32⟩
  | .local _ .vmem, ⟨25, _⟩ => ⟨S1x2048x16, .f32⟩
  | .local _ .vmem, ⟨26, _⟩ => ⟨S1x2048x16, .f32⟩
  | .local _ .vmem, ⟨27, _⟩ => ⟨S1x2048x16, .f32⟩
  | .local _ .vmem, ⟨28, _⟩ => ⟨S1x2048x2048, .f32⟩
  | .local _ .vmem, ⟨29, _⟩ => ⟨S1x2048x2048, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x64x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x4096x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1024x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x4096x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![4, 2, 2], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage4_0 : Fin 2 → Memref sig .tc .vmem S1x2048x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S1x2048x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x2048x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x64x16_S1x64x16_0_0_0 : ∀ a, (![0, 0, 0] : Fin 3 → Nat) a + S1x64x16.size a ≤ S1x64x16.size a
  h_S1x64x16 : 0 < S1x64x16.numel
  shapeCasts_S1x64x16_S64x16 : S1x64x16.ShapeCasts S64x16
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  shapeCasts_S4096x16_S1x4096x16 : S4096x16.ShapeCasts S1x4096x16
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1x1024x16 : S1024x16.ShapeCasts S1x1024x16
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  reduces_S2048x16_S2048 : S2048x16.Reduces [1] S2048
  shapeCasts_S2048_S2048x1 : S2048.ShapeCasts S2048x1
  broadcasts_S2048x1_S2048x16 : S2048x1.Broadcasts S2048x16
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  dot_S4096x128_S128x64_S4096x64_1_0_0_1_n_n_wf : DotDims.WF S4096x128 S128x64 S4096x64 [1] [0] [0] [1] [] []
  dot_S1024x4096_S4096x64_S1024x64_1_0_0_1_n_n_wf : DotDims.WF S1024x4096 S4096x64 S1024x64 [1] [0] [0] [1] [] []
  dot_S4096x64_S64x16_S4096x16_1_0_0_1_n_n_wf : DotDims.WF S4096x64 S64x16 S4096x16 [1] [0] [0] [1] [] []
  dot_S1024x4096_S4096x16_S1024x16_1_0_0_1_n_n_wf : DotDims.WF S1024x4096 S4096x16 S1024x16 [1] [0] [0] [1] [] []
  dot_S2048x16_S2048x16_S2048x2048_1_1_0_0_n_n_wf : DotDims.WF S2048x16 S2048x16 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S4x128x64.size a
  hwx0_1 : ∀ i : grid0.Coords, EltTy.bits .f32 = 32 ∨ (Rect.block (s := S4x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S4x4096x64.size a
  hwx0_2 : ∀ i : grid0.Coords, EltTy.bits .f32 = 32 ∨ (Rect.block (s := S4x4096x64) S1x4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x4096.size a ≤ S4x4096x4096.size a
  hwx1_0 : ∀ i : grid1.Coords, EltTy.bits .f32 = 32 ∨ (Rect.block (s := S4x4096x4096) S1x1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .f32 = 32 ∨ (Rect.block (s := S4x4096x64) S1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .f32 = 32 ∨ (Rect.block (s := S4x4096x64) S1x1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x64.size a ≤ S4x4096x64.size a
  hwx2_0 : ∀ i : grid2.Coords, EltTy.bits .f32 = 32 ∨ (Rect.block (s := S4x4096x64) S1x4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x16.size a ≤ S4x64x16.size a
  hwx2_1 : ∀ i : grid2.Coords, EltTy.bits .f32 = 32 ∨ (Rect.block (s := S4x64x16) S1x64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x4096x16.size a ≤ S4x4096x16.size a
  hwx2_2 : ∀ i : grid2.Coords, EltTy.bits .f32 = 32 ∨ (Rect.block (s := S4x4096x16) S1x4096x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x4096.size a ≤ S4x4096x4096.size a
  hwx3_0 : ∀ i : grid3.Coords, EltTy.bits .f32 = 32 ∨ (Rect.block (s := S4x4096x4096) S1x1024x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x4096x16.size a ≤ S4x4096x16.size a
  hwx3_1 : ∀ i : grid3.Coords, EltTy.bits .f32 = 32 ∨ (Rect.block (s := S4x4096x16) S1x4096x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x16.size a ≤ S4x4096x16.size a
  hwx3_2 : ∀ i : grid3.Coords, EltTy.bits .f32 = 32 ∨ (Rect.block (s := S4x4096x16) S1x1024x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048x16.size a ≤ S4x4096x16.size a
  hwx4_0 : ∀ i : grid4.Coords, EltTy.bits .f32 = 32 ∨ (Rect.block (s := S4x4096x16) S1x2048x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048x16.size a ≤ S4x4096x16.size a
  hwx4_1 : ∀ i : grid4.Coords, EltTy.bits .f32 = 32 ∨ (Rect.block (s := S4x4096x16) S1x2048x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048x2048.size a ≤ S4x4096x4096.size a
  hwx4_2 : ∀ i : grid4.Coords, EltTy.bits .f32 = 32 ∨ (Rect.block (s := S4x4096x4096) S1x2048x2048.size (cc4_transform_2 i) (hinb4_2 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf
def dot_S2048x16_S2048x16_S2048x2048_1_1_0_0_n_n : DotDims S2048x16 S2048x16 S2048x2048 where
  lhsContracting := [1]
  rhsContracting := [1]
  lhsNonContracting := [0]
  rhsNonContracting := [0]
  lhsBatch := []
  rhsBatch := []
  wf := dot_S2048x16_S2048x16_S2048x2048_1_1_0_0_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S1x4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1x64x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x4096x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S1x1024x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1x4096x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x1024x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S1x2048x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1x2048x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x2048x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S4x128x64 : Shape := ⟨3, ![4, 128, 64]⟩
abbrev S4x64x16 : Shape := ⟨3, ![4, 64, 16]⟩
abbrev S4x4096x64 : Shape := ⟨3, ![4, 4096, 64]⟩
abbrev S_ : Shape := ⟨0, ![]⟩
abbrev S4x4096x16 : Shape := ⟨3, ![4, 4096, 16]⟩
abbrev S4x4096 : Shape := ⟨2, ![4, 4096]⟩
abbrev S4x4096x1 : Shape := ⟨3, ![4, 4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x128x64, .f32⟩
  | .hbm, ⟨3, _⟩ => ⟨S4x64x16, .f32⟩
  | .hbm, ⟨4, _⟩ => ⟨S4x4096x64, .f32⟩
  | .hbm, ⟨5, _⟩ => ⟨S4x4096x64, .f32⟩
  | .hbm, ⟨6, _⟩ => ⟨S_, .f32⟩
  | .hbm, ⟨7, _⟩ => ⟨S4x4096x64, .f32⟩
  | .hbm, ⟨8, _⟩ => ⟨S4x4096x64, .f32⟩
  | .hbm, ⟨9, _⟩ => ⟨S4x4096x16, .f32⟩
  | .hbm, ⟨10, _⟩ => ⟨S4x4096x16, .f32⟩
  | .hbm, ⟨11, _⟩ => ⟨S4x4096x16, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x1, .f32⟩
  | .hbm, ⟨16, _⟩ => ⟨S4x4096x16, .f32⟩
  | .hbm, ⟨17, _⟩ => ⟨S4x4096x16, .f32⟩
  | .hbm, ⟨18, _⟩ => ⟨S4x4096x4096, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]

class Facts₀ : Prop where
  bcast_S_S4x4096x64 : S_.BroadcastsInDim S4x4096x64 (![] : Fin 0 → Fin S4x4096x64.rank)
  reducesTo_S4x4096x16_S4x4096_d2 : S4x4096x16.ReducesTo [2] S4x4096
  h_S_ : 0 < S_.numel
  bcast_S4x4096_S4x4096x1_0_1 : S4x4096.BroadcastsInDim S4x4096x1 (![0, 1] : Fin 2 → Fin S4x4096x1.rank)
  bcast_S4x4096x1_S4x4096x16_0_1_2 : S4x4096x1.BroadcastsInDim S4x4096x16 (![0, 1, 2] : Fin 3 → Fin S4x4096x16.rank)
  dot_S4x4096x128_S4x128x64_S4x4096x64_2_1_1_2_0_0_wf : DotDims.WF S4x4096x128 S4x128x64 S4x4096x64 [2] [1] [1] [2] [0] [0]
  dot_S4x4096x4096_S4x4096x64_S4x4096x64_2_1_1_2_0_0_wf : DotDims.WF S4x4096x4096 S4x4096x64 S4x4096x64 [2] [1] [1] [2] [0] [0]
  dot_S4x4096x64_S4x64x16_S4x4096x16_2_1_1_2_0_0_wf : DotDims.WF S4x4096x64 S4x64x16 S4x4096x16 [2] [1] [1] [2] [0] [0]
  dot_S4x4096x4096_S4x4096x16_S4x4096x16_2_1_1_2_0_0_wf : DotDims.WF S4x4096x4096 S4x4096x16 S4x4096x16 [2] [1] [1] [2] [0] [0]
  dot_S4x4096x16_S4x4096x16_S4x4096x4096_2_2_1_1_0_0_wf : DotDims.WF S4x4096x16 S4x4096x16 S4x4096x4096 [2] [2] [1] [1] [0] [0]

variable [Facts₀]

def dot_S4x4096x128_S4x128x64_S4x4096x64_2_1_1_2_0_0 : DotDims S4x4096x128 S4x128x64 S4x4096x64 where
  lhsContracting := [2]
  rhsContracting := [1]
  lhsNonContracting := [1]
  rhsNonContracting := [2]
  lhsBatch := [0]
  rhsBatch := [0]
  wf := dot_S4x4096x128_S4x128x64_S4x4096x64_2_1_1_2_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S4x64x16_S4x4096x16_2_1_1_2_0_0 : DotDims S4x4096x64 S4x64x16 S4x4096x16 where
  lhsContracting := [2]
  rhsContracting := [1]
  lhsNonContracting := [1]
  rhsNonContracting := [2]
  lhsBatch := [0]
  rhsBatch := [0]
  wf := dot_S4x4096x64_S4x64x16_S4x4096x16_2_1_1_2_0_0_wf
def dot_S4x4096x4096_S4x4096x16_S4x4096x16_2_1_1_2_0_0 : DotDims S4x4096x4096 S4x4096x16 S4x4096x16 where
  lhsContracting := [2]
  rhsContracting := [1]
  lhsNonContracting := [1]
  rhsNonContracting := [2]
  lhsBatch := [0]
  rhsBatch := [0]
  wf := dot_S4x4096x4096_S4x4096x16_S4x4096x16_2_1_1_2_0_0_wf
def dot_S4x4096x16_S4x4096x16_S4x4096x4096_2_2_1_1_0_0 : DotDims S4x4096x16 S4x4096x16 S4x4096x4096 where
  lhsContracting := [2]
  rhsContracting := [2]
  lhsNonContracting := [1]
  rhsNonContracting := [1]
  lhsBatch := [0]
  rhsBatch := [0]
  wf := dot_S4x4096x16_S4x4096x16_S4x4096x4096_2_2_1_1_0_0_wf

class Facts : Prop extends Facts₀ where

variable [Facts]
-- ==== Proof.WRegion0.lean ====
/-
  Kernel region 0 of the program: the first support product, the node features of one graph times its first weight matrix (one graph per grid point).
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.Kernel.Launch
import proofs.«146742_j70884140253432_2_alg».proof.Proof.Gen.Kernel.Skeleton
import proofs.«146742_j70884140253432_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's current buffer holds its block at every point, whether the point fetches it or the block
    index has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input window likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev ra0 : Rect S1x4096x128 := Rect.unit (s := S1x4096x128) ![0, 0, 0] S1x4096x128.size inb_S1x4096x128_S1x4096x128_0_0_0
abbrev rb0 : Rect S1x128x64 := Rect.unit (s := S1x128x64) ![0, 0, 0] S1x128x64.size inb_S1x128x64_S1x128x64_0_0_0
abbrev rc0 : Rect S1x4096x64 := Rect.unit (s := S1x4096x64) ![0, 0, 0] S1x4096x64.size inb_S1x4096x64_S1x4096x64_0_0_0

/-- What the body leaves in the output window's buffer: its one store, of the payload of the two loaded blocks. -/
def out0 (x0 : Vec F S1x4096x128 .f32) (x1 : Vec F S1x128x64 .f32) : Vec F S1x4096x64 .f32 :=
  View.canon [⟨rc0, k0_pay1 (View.ld x0 ra0) (View.ld x1 rb0)⟩]

/-- That store covers the whole buffer. -/
theorem cover0 (p0 : Vec F S1x4096x64 .f32) (y : S1x4096x64.Idx) :
    ∃ pc ∈ ([⟨rc0, p0⟩] : List (View.Piece (Elt F) S1x4096x64 .f32)), y ∈ pc.1.set :=
  View.cover_of_tiled [⟨rc0, p0⟩] S1x4096x64.size (by rfl) y

set_option maxHeartbeats 1000000 in
/-- The body on whole buffers, the inputs' at contents `x0`, `x1` and the output's at anything: it runs to the
    continuation with the inputs' buffers unchanged and the output's at `out0 x0 x1`. -/
theorem sound_kernel0 (c : Dev nD) (E : Set ℕ) (i : grid0.Coords) (arg0 : Memref sig .tc .vmem S1x4096x128 .f32) (harg0 : arg0.IsWhole) (arg1 : Memref sig .tc .vmem S1x128x64 .f32) (harg1 : arg1.IsWhole)
    (arg2 : Memref sig .tc .vmem S1x4096x64 .f32) (harg2 : arg2.IsWhole)
    (x0 : Vec F S1x4096x128 .f32) (x1 : Vec F S1x128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0 x0 x1)) -∗ K ⟨⟩))
      ⊢ wp frame (wpE (defs₀ (F := F)) Variants.none c none) E (cc0__sup_kernel i arg0 harg0 arg1 harg1 arg2 harg2) K := by
  simp only [cc0__sup_kernel_eq_skeleton]; unfold cc0__sup_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of the pipeline on core `c`: the arrays as the region finds them; after the body at point `t` each
    input's buffer at its block and the output's at `out0` of the two input blocks; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.WRegion1.lean ====
/-
  Kernel region 1 of the program: the first graph convolution, a tile of 1024 rows of one graph's adjacency times that graph's support, clamped below at zero.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.Kernel.Launch
import proofs.«146742_j70884140253432_2_alg».proof.Proof.Gen.Kernel.Skeleton
import proofs.«146742_j70884140253432_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's current buffer holds its block at every point, whether the point fetches it or the block
    index has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev ra1 : Rect S1x1024x4096 := Rect.unit (s := S1x1024x4096) ![0, 0, 0] S1x1024x4096.size inb_S1x1024x4096_S1x1024x4096_0_0_0
abbrev rb1 : Rect S1x4096x64 := Rect.unit (s := S1x4096x64) ![0, 0, 0] S1x4096x64.size inb_S1x4096x64_S1x4096x64_0_0_0
abbrev rc1 : Rect S1x1024x64 := Rect.unit (s := S1x1024x64) ![0, 0, 0] S1x1024x64.size inb_S1x1024x64_S1x1024x64_0_0_0

/-- What the body leaves in the output window's buffer: its one store, of the payload of the two loaded blocks. -/
def out1 (x0 : Vec F S1x1024x4096 .f32) (x1 : Vec F S1x4096x64 .f32) : Vec F S1x1024x64 .f32 :=
  View.canon [⟨rc1, k1_pay1 (View.ld x0 ra1) (View.ld x1 rb1)⟩]

/-- That store covers the whole buffer. -/
theorem cover1 (p0 : Vec F S1x1024x64 .f32) (y : S1x1024x64.Idx) :
    ∃ pc ∈ ([⟨rc1, p0⟩] : List (View.Piece (Elt F) S1x1024x64 .f32)), y ∈ pc.1.set :=
  View.cover_of_tiled [⟨rc1, p0⟩] S1x1024x64.size (by rfl) y

set_option maxHeartbeats 1000000 in
/-- The body on whole buffers, the inputs' at contents `x0`, `x1` and the output's at anything: it runs to the
    continuation with the inputs' buffers unchanged and the output's at `out1 x0 x1`. -/
theorem sound_kernel1 (c : Dev nD) (E : Set ℕ) (i : grid1.Coords) (arg0 : Memref sig .tc .vmem S1x1024x4096 .f32) (harg0 : arg0.IsWhole) (arg1 : Memref sig .tc .vmem S1x4096x64 .f32) (harg1 : arg1.IsWhole)
    (arg2 : Memref sig .tc .vmem S1x1024x64 .f32) (harg2 : arg2.IsWhole)
    (x0 : Vec F S1x1024x4096 .f32) (x1 : Vec F S1x4096x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1 x0 x1)) -∗ K ⟨⟩))
      ⊢ wp frame (wpE (defs₀ (F := F)) Variants.none c none) E (cc1__h_kernel i arg0 harg0 arg1 harg1 arg2 harg2) K := by
  simp only [cc1__h_kernel_eq_skeleton]; unfold cc1__h_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the pipeline on core `c`: the arrays as the region finds them; after the body at point `t` each
    input's buffer at its block and the output's at `out1` of the two input blocks; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.WRegion2.lean ====
/-
  Kernel region 2 of the program: the second support product, the hidden features of one graph times its second weight matrix.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.Kernel.Launch
import proofs.«146742_j70884140253432_2_alg».proof.Proof.Gen.Kernel.Skeleton
import proofs.«146742_j70884140253432_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input window's current buffer holds its block at every point, whether the point fetches it or the block
    index has not moved since it was fetched. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input window likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev ra2 : Rect S1x4096x64 := Rect.unit (s := S1x4096x64) ![0, 0, 0] S1x4096x64.size inb_S1x4096x64_S1x4096x64_0_0_0
abbrev rb2 : Rect S1x64x16 := Rect.unit (s := S1x64x16) ![0, 0, 0] S1x64x16.size inb_S1x64x16_S1x64x16_0_0_0
abbrev rc2 : Rect S1x4096x16 := Rect.unit (s := S1x4096x16) ![0, 0, 0] S1x4096x16.size inb_S1x4096x16_S1x4096x16_0_0_0

/-- What the body leaves in the output window's buffer: its one store, of the payload of the two loaded blocks. -/
def out2 (x0 : Vec F S1x4096x64 .f32) (x1 : Vec F S1x64x16 .f32) : Vec F S1x4096x16 .f32 :=
  View.canon [⟨rc2, k2_pay1 (View.ld x0 ra2) (View.ld x1 rb2)⟩]

/-- That store covers the whole buffer. -/
theorem cover2 (p0 : Vec F S1x4096x16 .f32) (y : S1x4096x16.Idx) :
    ∃ pc ∈ ([⟨rc2, p0⟩] : List (View.Piece (Elt F) S1x4096x16 .f32)), y ∈ pc.1.set :=
  View.cover_of_tiled [⟨rc2, p0⟩] S1x4096x16.size (by rfl) y

set_option maxHeartbeats 1000000 in
/-- The body on whole buffers, the inputs' at contents `x0`, `x1` and the output's at anything: it runs to the
    continuation with the inputs' buffers unchanged and the output's at `out2 x0 x1`. -/
theorem sound_kernel2 (c : Dev nD) (E : Set ℕ) (i : grid2.Coords) (arg0 : Memref sig .tc .vmem S1x4096x64 .f32) (harg0 : arg0.IsWhole) (arg1 : Memref sig .tc .vmem S1x64x16 .f32) (harg1 : arg1.IsWhole)
    (arg2 : Memref sig .tc .vmem S1x4096x16 .f32) (harg2 : arg2.IsWhole)
    (x0 : Vec F S1x4096x64 .f32) (x1 : Vec F S1x64x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc2__sup_kernel i arg0 harg0 arg1 harg1 arg2 harg2) K := by
  simp only [cc2__sup_kernel_eq_skeleton]; unfold cc2__sup_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of the pipeline on core `c`: the arrays as the region finds them; after the body at point `t` each
    input's buffer at its block and the output's at `out2` of the two input blocks; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.WRegion3.lean ====
/-
  Kernel region 3 of the program: the second graph convolution, a tile of 1024 rows of one graph's adjacency times that graph's second support.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.Kernel.Launch
import proofs.«146742_j70884140253432_2_alg».proof.Proof.Gen.Kernel.Skeleton
import proofs.«146742_j70884140253432_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input window's current buffer holds its block at every point, whether the point fetches it or the block
    index has not moved since it was fetched. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input window likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev ra3 : Rect S1x1024x4096 := Rect.unit (s := S1x1024x4096) ![0, 0, 0] S1x1024x4096.size inb_S1x1024x4096_S1x1024x4096_0_0_0
abbrev rb3 : Rect S1x4096x16 := Rect.unit (s := S1x4096x16) ![0, 0, 0] S1x4096x16.size inb_S1x4096x16_S1x4096x16_0_0_0
abbrev rc3 : Rect S1x1024x16 := Rect.unit (s := S1x1024x16) ![0, 0, 0] S1x1024x16.size inb_S1x1024x16_S1x1024x16_0_0_0

/-- What the body leaves in the output window's buffer: its one store, of the payload of the two loaded blocks. -/
def out3 (x0 : Vec F S1x1024x4096 .f32) (x1 : Vec F S1x4096x16 .f32) : Vec F S1x1024x16 .f32 :=
  View.canon [⟨rc3, k3_pay1 (View.ld x0 ra3) (View.ld x1 rb3)⟩]

/-- That store covers the whole buffer. -/
theorem cover3 (p0 : Vec F S1x1024x16 .f32) (y : S1x1024x16.Idx) :
    ∃ pc ∈ ([⟨rc3, p0⟩] : List (View.Piece (Elt F) S1x1024x16 .f32)), y ∈ pc.1.set :=
  View.cover_of_tiled [⟨rc3, p0⟩] S1x1024x16.size (by rfl) y

set_option maxHeartbeats 1000000 in
/-- The body on whole buffers, the inputs' at contents `x0`, `x1` and the output's at anything: it runs to the
    continuation with the inputs' buffers unchanged and the output's at `out3 x0 x1`. -/
theorem sound_kernel3 (c : Dev nD) (E : Set ℕ) (i : grid3.Coords) (arg0 : Memref sig .tc .vmem S1x1024x4096 .f32) (harg0 : arg0.IsWhole) (arg1 : Memref sig .tc .vmem S1x4096x16 .f32) (harg1 : arg1.IsWhole)
    (arg2 : Memref sig .tc .vmem S1x1024x16 .f32) (harg2 : arg2.IsWhole)
    (x0 : Vec F S1x1024x4096 .f32) (x1 : Vec F S1x4096x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3 x0 x1)) -∗ K ⟨⟩))
      ⊢ wp frame (wpE (defs₀ (F := F)) Variants.none c none) E (cc3__z_kernel i arg0 harg0 arg1 harg1 arg2 harg2) K := by
  simp only [cc3__z_kernel_eq_skeleton]; unfold cc3__z_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of the pipeline on core `c`: the arrays as the region finds them; after the body at point `t` each
    input's buffer at its block and the output's at `out3` of the two input blocks; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.WRegion4.lean ====
/-
  Kernel region 4 of the program: the decoder, a 2048 by 2048 tile of the inner products of the unit-length embedding rows of one graph.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.Kernel.Launch
import proofs.«146742_j70884140253432_2_alg».proof.Proof.Gen.Kernel.Skeleton
import proofs.«146742_j70884140253432_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input window's current buffer holds its block at every point, whether the point fetches it or the block
    index has not moved since it was fetched. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The second input window likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev ra4 : Rect S1x2048x16 := Rect.unit (s := S1x2048x16) ![0, 0, 0] S1x2048x16.size inb_S1x2048x16_S1x2048x16_0_0_0
abbrev rb4 : Rect S1x2048x16 := Rect.unit (s := S1x2048x16) ![0, 0, 0] S1x2048x16.size inb_S1x2048x16_S1x2048x16_0_0_0
abbrev rc4 : Rect S1x2048x2048 := Rect.unit (s := S1x2048x2048) ![0, 0, 0] S1x2048x2048.size inb_S1x2048x2048_S1x2048x2048_0_0_0

/-- What the body leaves in the output window's buffer: its one store, of the payload of the two loaded blocks. -/
def out4 (x0 : Vec F S1x2048x16 .f32) (x1 : Vec F S1x2048x16 .f32) : Vec F S1x2048x2048 .f32 :=
  View.canon [⟨rc4, k4_pay1 (View.ld x0 ra4) (View.ld x1 rb4)⟩]

/-- That store covers the whole buffer. -/
theorem cover4 (p0 : Vec F S1x2048x2048 .f32) (y : S1x2048x2048.Idx) :
    ∃ pc ∈ ([⟨rc4, p0⟩] : List (View.Piece (Elt F) S1x2048x2048 .f32)), y ∈ pc.1.set :=
  View.cover_of_tiled [⟨rc4, p0⟩] S1x2048x2048.size (by rfl) y

set_option maxHeartbeats 1000000 in
/-- The body on whole buffers, the inputs' at contents `x0`, `x1` and the output's at anything: it runs to the
    continuation with the inputs' buffers unchanged and the output's at `out4 x0 x1`. -/
theorem sound_kernel4 (c : Dev nD) (E : Set ℕ) (i : grid4.Coords) (arg0 : Memref sig .tc .vmem S1x2048x16 .f32) (harg0 : arg0.IsWhole) (arg1 : Memref sig .tc .vmem S1x2048x16 .f32) (harg1 : arg1.IsWhole)
    (arg2 : Memref sig .tc .vmem S1x2048x2048 .f32) (harg2 : arg2.IsWhole)
    (x0 : Vec F S1x2048x16 .f32) (x1 : Vec F S1x2048x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4 x0 x1)) -∗ K ⟨⟩))
      ⊢ wp frame (wpE (defs₀ (F := F)) Variants.none c none) E (cc4__recon_kernel i arg0 harg0 arg1 harg1 arg2 harg2) K := by
  simp only [cc4__recon_kernel_eq_skeleton]; unfold cc4__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-- The proof data of the pipeline on core `c`: the arrays as the region finds them; after the body at point `t` each
    input's buffer at its block and the output's at `out4` of the two input blocks; the two input windows read ONE array, held at its left and right half shares, the output's array at the full share; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.WRun.lean ====
/-
  The five kernel regions in sequence. Between two regions core `c` holds every unscoped buffer whole at known
  contents: at launch the launch memory; after a region, that region's arrays at what its write-backs leave and every
  other buffer unchanged. The regions' proof data are stated at those contents, each region is a segment from one
  boundary to the next, and the last region's arrays are kept as it leaves them, to be read against the final state.
  The decoder's two input windows read one array, whose full share is dealt to them as its two halves.
-/
import proofs.«146742_j70884140253432_2_alg».proof.Proof.WRegion0
import proofs.«146742_j70884140253432_2_alg».proof.Proof.WRegion1
import proofs.«146742_j70884140253432_2_alg».proof.Proof.WRegion2
import proofs.«146742_j70884140253432_2_alg».proof.Proof.WRegion3
import proofs.«146742_j70884140253432_2_alg».proof.Proof.WRegion4

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the core's own references. -/
abbrev V0 : (c : Dev nD) → (b : Ref sig .tc) → Buf (Elt F) ((c : Thread nD τ).loc b) := fun c b => W0 m ρ c b

/-- After region 0: its arrays at what its write-backs leave, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's own references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's own references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what its write-backs leave, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's own references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what its write-backs leave, every other buffer as the region found it. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the core's own references. -/
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-! ## The proof data family and the thread state -/

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Regions 0 to 3 as segments -/

set_option backward.isDefEq.respectTransparency.types false in
/-- Region 0 over the thread state "every unscoped buffer at the boundary's contents, the generator register at some
    state, nothing owed": its arrays are split out of the unscoped buffers at entry and put back at the contents the
    region leaves at exit; the register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at the contents the
    region leaves at exit; the register goes into the region's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the contents the
    region leaves at exit; the register goes into the region's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at some
    state, nothing owed": its arrays are split out of the unscoped buffers at entry and put back at the contents the
    region leaves at exit; the register goes into the region's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: one array behind two input windows -/

section Shared

variable (V : (c : Dev nD) → (b : Ref sig .tc) → Buf (Elt F) ((c : Thread nD τ).loc b))

/-- Region 4's arrays as three points-tos: the embeddings' buffer at its left half share for the first input window and at
    its right half share for the second, the result's buffer at the full share. -/
theorem arrays4_eq (c : Dev nD) (Fa : (w : Fin cfg4.W) → Buf (Elt F) ((cfg4.win w).arr.view.loc (c : Thread nD τ))) :
    ((dat4 V c).arrays Fa : sProp 𝕄)
      = iprop((((c : Thread nD τ).loc main_v3) ↦{fullShare.left} Fa 0) ∗ (((c : Thread nD τ).loc main_v3) ↦{fullShare.right} Fa 1)
          ∗ (((c : Thread nD τ).loc main_v4) ↦{fullShare} Fa 2)) := by
  unfold Dat.arrays
  rw [bigSep_W4]
  have s0 : (dat4 V c).share 0 = fullShare.left := rfl
  have s1 : (dat4 V c).share 1 = fullShare.right := rfl
  have s2 : (dat4 V c).share 2 = fullShare := rfl
  rw [s0, s1, s2, (arr_whole4 0).set_eq_univ, (arr_whole4 2).set_eq_univ]

/-- The two distinct buffers behind region 4's three arrays. -/
theorem arrBufs4_eq (c : Dev nD) (V' : (b : Ref sig .tc) → Buf (Elt F) ((c : Thread nD τ).loc b)) :
    (Pipeline.arrBufs (Ix := Unit) (Name := ℕ) (U := UR sig nD τ) (Lvl := ℕ) spec4 c V' : sProp 𝕄)
      = iprop((((c : Thread nD τ).loc main_v3) ↦{fullShare} V' main_v3) ∗ (((c : Thread nD τ).loc main_v4) ↦{fullShare} V' main_v4)) := by
  unfold Pipeline.arrBufs
  rw [show Finset.univ.image (Pipeline.arrRef spec4) = insert main_v3 ({main_v4} : Finset (Ref sig .tc)) from by decide,
    BI.bigSep_insert (by decide), BI.bigSep_singleton]
  rfl

/-- At entry the embeddings' buffer, whole at the full share, is dealt to the two input windows as its two halves. -/
theorem hsplit4 (c : Dev nD) :
    (Pipeline.arrBufs (Ix := Unit) (Name := ℕ) (U := UR sig nD τ) (Lvl := ℕ) spec4 c (V c) : sProp 𝕄)
      ⊢ (dat4 V c).arrays ((dat4 V c).arrAt · 0) := by
  rw [arrBufs4_eq, arrays4_eq]
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

end Shared

/-- The last thread state: region 4's arrays as it leaves them, every other unscoped buffer as region 4 found it, the
    generator register at some state. -/
abbrev Tₙ (c : Dev nD) : sProp 𝕄 :=
  iprop((dat4 (V4 m ρ) c).arrays ((dat4 (V4 m ρ) c).arrAt · cfg4.N)
    ∗ Pipeline.unscopedRest (Ix := Unit) (Name := ℕ) (U := UR sig nD τ) (Lvl := ℕ) spec4 c (V4 m ρ c) ∗ ∃ r, prngReg c r)

set_option backward.isDefEq.respectTransparency.types false in
/-- Region 4 over the thread state: entered from every unscoped buffer at the contents region 3 leaves; its arrays are
    split out with the shared buffer halved; it is the last item, so its arrays stay as it leaves them. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hs := Pipeline.unscopedBufs_split₀ (Ix := Unit) (Name := ℕ) (U := UR sig nD τ) (Lvl := ℕ) cfgs 4 winFacts₀4.arr_unscoped c (V4 m ρ c)
    rw [Pipeline.unscopedBufs_held] at hs
    have hsplit : (StableHlo.held (c : Thread nD τ) (Pipeline.ucRefs τ sig) (W4 m ρ c) : sProp 𝕄)
        ⊢ iprop((dat4 (V4 m ρ) c).arrays ((dat4 (V4 m ρ) c).arrAt · 0)
            ∗ Pipeline.unscopedRest (Ix := Unit) (Name := ℕ) (U := UR sig nD τ) (Lvl := ℕ) spec4 c (V4 m ρ c)) :=
      (Entails.of_eq hs).trans (sep_mono (hsplit4 (V4 m ρ) c) .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.Dat.owesAt Pipeline.owesWithin
    icases HO with ⟨%W, -, HO⟩; iexists W; iexact HO

/-! ## The arguments at the last boundary: no region writes one -/

theorem V4_main_arg0 (c : Dev nD) : V4 m ρ c main_arg0 = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem V3_main_arg1 (c : Dev nD) : V3 m ρ c main_arg1 = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl
theorem V4_main_arg1 (c : Dev nD) : V4 m ρ c main_arg1 = m ((c : Thread nD τ).loc main_arg1) :=
  ((W4_arr m ρ c 0).trans (((dat3 (V3 m ρ) c).arrAt_in 0 rfl _).trans (A_eq3 (V3 m ρ) c 0))).trans (V3_main_arg1 m ρ c)
theorem V4_main_arg2 (c : Dev nD) : V4 m ρ c main_arg2 = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem V2_main_arg3 (c : Dev nD) : V2 m ρ c main_arg3 = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem V4_main_arg3 (c : Dev nD) : V4 m ρ c main_arg3 = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((dat2 (V2 m ρ) c).arrAt_in 1 rfl _).trans (A_eq2 (V2 m ρ) c 1))
    _ = m ((c : Thread nD τ).loc main_arg3) := V2_main_arg3 m ρ c

/-! ## What each region reads: the earlier regions' results and the arguments -/

theorem V1_main_arg1 (c : Dev nD) : V1 m ρ c main_arg1 = m ((c : Thread nD τ).loc main_arg1) :=
  (W1_of_ne m ρ c main_arg1 (by decide)).trans rfl
theorem V1_main_v0 (c : Dev nD) : V1 m ρ c main_v0 = (dat0 (V0 m ρ) c).arrAt 2 cfg0.N := W1_arr m ρ c 2
theorem V2_main_v1 (c : Dev nD) : V2 m ρ c main_v1 = (dat1 (V1 m ρ) c).arrAt 2 cfg1.N := W2_arr m ρ c 2
theorem V3_main_v2 (c : Dev nD) : V3 m ρ c main_v2 = (dat2 (V2 m ρ) c).arrAt 2 cfg2.N := W3_arr m ρ c 2
theorem V4_main_v3 (c : Dev nD) : V4 m ρ c main_v3 = (dat3 (V3 m ρ) c).arrAt 2 cfg3.N := W4_arr m ρ c 2

/-! ## @main as segments, and the launch -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

theorem main_run (c : Dev nD) : main (F := F) c = Pipeline.Seg.run (segs m ρ) :=
  main_segs adm (pdats m ρ) () 𝒱₀ L lv (reg0 m ρ) (reg1 m ρ) (reg2 m ρ) (reg3 m ρ) (reg4 m ρ) c

set_option backward.isDefEq.respectTransparency.types false in
/-- THE RUN: from any memory with zero counters every weakly fair execution of @main terminates, nothing faulting, and in
    every final state the result's buffer holds what region 4's write-backs leave and each argument what it held at launch. -/
theorem run_all : θ_run defs (onTc (τ := τ) (main (F := F))) ⟨m, fun _ => 0, ρ⟩ (fun r => ∀ c : Dev nD,
      r.2.mem ((c.tc : Thread nD τ).loc main_v4) = (dat4 (V4 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v4) = (dat4 (V4 m ρ) c).arrAt 2 cfg4.N
      ∧ ∀ b ∈ Pipeline.restRefs sig spec4, s.mem ((c.tc : Thread nD τ).loc b) = V4 m ρ c b)
    (hfin := fun c s' => by
      rw [show Tₙ m ρ c = iprop(((((c : Thread nD τ).loc main_v3) ↦{fullShare.left} (dat4 (V4 m ρ) c).arrAt 0 cfg4.N)
            ∗ (((c : Thread nD τ).loc main_v3) ↦{fullShare.right} (dat4 (V4 m ρ) c).arrAt 1 cfg4.N)
            ∗ (((c : Thread nD τ).loc main_v4) ↦{fullShare} (dat4 (V4 m ρ) c).arrAt 2 cfg4.N))
          ∗ Pipeline.unscopedRest (Ix := Unit) (Name := ℕ) (U := UR sig nD τ) (Lvl := ℕ) spec4 c (V4 m ρ c) ∗ ∃ r, prngReg c r)
        from by unfold Tₙ; rw [arrays4_eq]]
      iintro ⟨⟨⟨-, -, H4⟩, HU, -⟩, HSI⟩
      icombine HSI H4 gives %h4
      unfold Pipeline.unscopedRest
      ihave Hr := (pointsTo_read_all (Pipeline.restRefs sig spec4) (fun b => (c.tc : Thread nD τ).loc b) (V4 m ρ c) s') $$ [HU HSI]
      · isplitl [HU] <;> iassumption
      icases Hr with ⟨%hU, HSI⟩
      imodintro
      isplitr
      · ipureintro; exact ⟨Buf.eq_of_forall_mem_univ h4, hU⟩
      · iexact HSI)
    (hQ := fun s h c =>
      ⟨(h c).1,
        ((h c).2 main_arg0 (by decide)).trans (V4_main_arg0 m ρ c),
        ((h c).2 main_arg1 (by decide)).trans (V4_main_arg1 m ρ c),
        ((h c).2 main_arg2 (by decide)).trans (V4_main_arg2 m ρ c),
        ((h c).2 main_arg3 (by decide)).trans (V4_main_arg3 m ρ c)⟩)

end Cert.Kernel.Rg

end
-- ==== Proof.Region0.lean ====
/-
  Kernel region 0 of the program: the first support product, the node features of one graph times its first weight matrix (one graph per grid point).
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.KernelIdeal.Launch
import proofs.«146742_j70884140253432_2_alg».proof.Proof.Gen.KernelIdeal.Skeleton
import proofs.«146742_j70884140253432_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's current buffer holds its block at every point, whether the point fetches it or the block
    index has not moved since it was fetched. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input window likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev ra0 : Rect S1x4096x128 := Rect.unit (s := S1x4096x128) ![0, 0, 0] S1x4096x128.size inb_S1x4096x128_S1x4096x128_0_0_0
abbrev rb0 : Rect S1x128x64 := Rect.unit (s := S1x128x64) ![0, 0, 0] S1x128x64.size inb_S1x128x64_S1x128x64_0_0_0
abbrev rc0 : Rect S1x4096x64 := Rect.unit (s := S1x4096x64) ![0, 0, 0] S1x4096x64.size inb_S1x4096x64_S1x4096x64_0_0_0

/-- What the body leaves in the output window's buffer: its one store, of the payload of the two loaded blocks. -/
def out0 (x0 : Vec F S1x4096x128 .f32) (x1 : Vec F S1x128x64 .f32) : Vec F S1x4096x64 .f32 :=
  View.canon [⟨rc0, k0_pay1 (View.ld x0 ra0) (View.ld x1 rb0)⟩]

/-- That store covers the whole buffer. -/
theorem cover0 (p0 : Vec F S1x4096x64 .f32) (y : S1x4096x64.Idx) :
    ∃ pc ∈ ([⟨rc0, p0⟩] : List (View.Piece (Elt F) S1x4096x64 .f32)), y ∈ pc.1.set :=
  View.cover_of_tiled [⟨rc0, p0⟩] S1x4096x64.size (by rfl) y

set_option maxHeartbeats 1000000 in
/-- The body on whole buffers, the inputs' at contents `x0`, `x1` and the output's at anything: it runs to the
    continuation with the inputs' buffers unchanged and the output's at `out0 x0 x1`. -/
theorem sound_kernel0 (c : Dev nD) (E : Set ℕ) (i : grid0.Coords) (arg0 : Memref sig .tc .vmem S1x4096x128 .f32) (harg0 : arg0.IsWhole) (arg1 : Memref sig .tc .vmem S1x128x64 .f32) (harg1 : arg1.IsWhole)
    (arg2 : Memref sig .tc .vmem S1x4096x64 .f32) (harg2 : arg2.IsWhole)
    (x0 : Vec F S1x4096x128 .f32) (x1 : Vec F S1x128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0 x0 x1)) -∗ K ⟨⟩))
      ⊢ wp frame (wpE (defs₀ (F := F)) Variants.none c none) E (cc0__sup_kernel i arg0 harg0 arg1 harg1 arg2 harg2) K := by
  simp only [cc0__sup_kernel_eq_skeleton]; unfold cc0__sup_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The proof data of the pipeline on core `c`: the arrays as the region finds them; after the body at point `t` each
    input's buffer at its block and the output's at `out0` of the two input blocks; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.Region1.lean ====
/-
  Kernel region 1 of the program: the first graph convolution, a tile of 1024 rows of one graph's adjacency times that graph's support, clamped below at zero.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.KernelIdeal.Launch
import proofs.«146742_j70884140253432_2_alg».proof.Proof.Gen.KernelIdeal.Skeleton
import proofs.«146742_j70884140253432_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input window's current buffer holds its block at every point, whether the point fetches it or the block
    index has not moved since it was fetched. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input window likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev ra1 : Rect S1x1024x4096 := Rect.unit (s := S1x1024x4096) ![0, 0, 0] S1x1024x4096.size inb_S1x1024x4096_S1x1024x4096_0_0_0
abbrev rb1 : Rect S1x4096x64 := Rect.unit (s := S1x4096x64) ![0, 0, 0] S1x4096x64.size inb_S1x4096x64_S1x4096x64_0_0_0
abbrev rc1 : Rect S1x1024x64 := Rect.unit (s := S1x1024x64) ![0, 0, 0] S1x1024x64.size inb_S1x1024x64_S1x1024x64_0_0_0

/-- What the body leaves in the output window's buffer: its one store, of the payload of the two loaded blocks. -/
def out1 (x0 : Vec F S1x1024x4096 .f32) (x1 : Vec F S1x4096x64 .f32) : Vec F S1x1024x64 .f32 :=
  View.canon [⟨rc1, k1_pay1 (View.ld x0 ra1) (View.ld x1 rb1)⟩]

/-- That store covers the whole buffer. -/
theorem cover1 (p0 : Vec F S1x1024x64 .f32) (y : S1x1024x64.Idx) :
    ∃ pc ∈ ([⟨rc1, p0⟩] : List (View.Piece (Elt F) S1x1024x64 .f32)), y ∈ pc.1.set :=
  View.cover_of_tiled [⟨rc1, p0⟩] S1x1024x64.size (by rfl) y

set_option maxHeartbeats 1000000 in
/-- The body on whole buffers, the inputs' at contents `x0`, `x1` and the output's at anything: it runs to the
    continuation with the inputs' buffers unchanged and the output's at `out1 x0 x1`. -/
theorem sound_kernel1 (c : Dev nD) (E : Set ℕ) (i : grid1.Coords) (arg0 : Memref sig .tc .vmem S1x1024x4096 .f32) (harg0 : arg0.IsWhole) (arg1 : Memref sig .tc .vmem S1x4096x64 .f32) (harg1 : arg1.IsWhole)
    (arg2 : Memref sig .tc .vmem S1x1024x64 .f32) (harg2 : arg2.IsWhole)
    (x0 : Vec F S1x1024x4096 .f32) (x1 : Vec F S1x4096x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1 x0 x1)) -∗ K ⟨⟩))
      ⊢ wp frame (wpE (defs₀ (F := F)) Variants.none c none) E (cc1__h_kernel i arg0 harg0 arg1 harg1 arg2 harg2) K := by
  simp only [cc1__h_kernel_eq_skeleton]; unfold cc1__h_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The proof data of the pipeline on core `c`: the arrays as the region finds them; after the body at point `t` each
    input's buffer at its block and the output's at `out1` of the two input blocks; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.Region2.lean ====
/-
  Kernel region 2 of the program: the second support product, the hidden features of one graph times its second weight matrix.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.KernelIdeal.Launch
import proofs.«146742_j70884140253432_2_alg».proof.Proof.Gen.KernelIdeal.Skeleton
import proofs.«146742_j70884140253432_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input window's current buffer holds its block at every point, whether the point fetches it or the block
    index has not moved since it was fetched. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input window likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev ra2 : Rect S1x4096x64 := Rect.unit (s := S1x4096x64) ![0, 0, 0] S1x4096x64.size inb_S1x4096x64_S1x4096x64_0_0_0
abbrev rb2 : Rect S1x64x16 := Rect.unit (s := S1x64x16) ![0, 0, 0] S1x64x16.size inb_S1x64x16_S1x64x16_0_0_0
abbrev rc2 : Rect S1x4096x16 := Rect.unit (s := S1x4096x16) ![0, 0, 0] S1x4096x16.size inb_S1x4096x16_S1x4096x16_0_0_0

/-- What the body leaves in the output window's buffer: its one store, of the payload of the two loaded blocks. -/
def out2 (x0 : Vec F S1x4096x64 .f32) (x1 : Vec F S1x64x16 .f32) : Vec F S1x4096x16 .f32 :=
  View.canon [⟨rc2, k2_pay1 (View.ld x0 ra2) (View.ld x1 rb2)⟩]

/-- That store covers the whole buffer. -/
theorem cover2 (p0 : Vec F S1x4096x16 .f32) (y : S1x4096x16.Idx) :
    ∃ pc ∈ ([⟨rc2, p0⟩] : List (View.Piece (Elt F) S1x4096x16 .f32)), y ∈ pc.1.set :=
  View.cover_of_tiled [⟨rc2, p0⟩] S1x4096x16.size (by rfl) y

set_option maxHeartbeats 1000000 in
/-- The body on whole buffers, the inputs' at contents `x0`, `x1` and the output's at anything: it runs to the
    continuation with the inputs' buffers unchanged and the output's at `out2 x0 x1`. -/
theorem sound_kernel2 (c : Dev nD) (E : Set ℕ) (i : grid2.Coords) (arg0 : Memref sig .tc .vmem S1x4096x64 .f32) (harg0 : arg0.IsWhole) (arg1 : Memref sig .tc .vmem S1x64x16 .f32) (harg1 : arg1.IsWhole)
    (arg2 : Memref sig .tc .vmem S1x4096x16 .f32) (harg2 : arg2.IsWhole)
    (x0 : Vec F S1x4096x64 .f32) (x1 : Vec F S1x64x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc2__sup_kernel i arg0 harg0 arg1 harg1 arg2 harg2) K := by
  simp only [cc2__sup_kernel_eq_skeleton]; unfold cc2__sup_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of the pipeline on core `c`: the arrays as the region finds them; after the body at point `t` each
    input's buffer at its block and the output's at `out2` of the two input blocks; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.Region3.lean ====
/-
  Kernel region 3 of the program: the second graph convolution, a tile of 1024 rows of one graph's adjacency times that graph's second support.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.KernelIdeal.Launch
import proofs.«146742_j70884140253432_2_alg».proof.Proof.Gen.KernelIdeal.Skeleton
import proofs.«146742_j70884140253432_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input window's current buffer holds its block at every point, whether the point fetches it or the block
    index has not moved since it was fetched. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input window likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev ra3 : Rect S1x1024x4096 := Rect.unit (s := S1x1024x4096) ![0, 0, 0] S1x1024x4096.size inb_S1x1024x4096_S1x1024x4096_0_0_0
abbrev rb3 : Rect S1x4096x16 := Rect.unit (s := S1x4096x16) ![0, 0, 0] S1x4096x16.size inb_S1x4096x16_S1x4096x16_0_0_0
abbrev rc3 : Rect S1x1024x16 := Rect.unit (s := S1x1024x16) ![0, 0, 0] S1x1024x16.size inb_S1x1024x16_S1x1024x16_0_0_0

/-- What the body leaves in the output window's buffer: its one store, of the payload of the two loaded blocks. -/
def out3 (x0 : Vec F S1x1024x4096 .f32) (x1 : Vec F S1x4096x16 .f32) : Vec F S1x1024x16 .f32 :=
  View.canon [⟨rc3, k3_pay1 (View.ld x0 ra3) (View.ld x1 rb3)⟩]

/-- That store covers the whole buffer. -/
theorem cover3 (p0 : Vec F S1x1024x16 .f32) (y : S1x1024x16.Idx) :
    ∃ pc ∈ ([⟨rc3, p0⟩] : List (View.Piece (Elt F) S1x1024x16 .f32)), y ∈ pc.1.set :=
  View.cover_of_tiled [⟨rc3, p0⟩] S1x1024x16.size (by rfl) y

set_option maxHeartbeats 1000000 in
/-- The body on whole buffers, the inputs' at contents `x0`, `x1` and the output's at anything: it runs to the
    continuation with the inputs' buffers unchanged and the output's at `out3 x0 x1`. -/
theorem sound_kernel3 (c : Dev nD) (E : Set ℕ) (i : grid3.Coords) (arg0 : Memref sig .tc .vmem S1x1024x4096 .f32) (harg0 : arg0.IsWhole) (arg1 : Memref sig .tc .vmem S1x4096x16 .f32) (harg1 : arg1.IsWhole)
    (arg2 : Memref sig .tc .vmem S1x1024x16 .f32) (harg2 : arg2.IsWhole)
    (x0 : Vec F S1x1024x4096 .f32) (x1 : Vec F S1x4096x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3 x0 x1)) -∗ K ⟨⟩))
      ⊢ wp frame (wpE (defs₀ (F := F)) Variants.none c none) E (cc3__z_kernel i arg0 harg0 arg1 harg1 arg2 harg2) K := by
  simp only [cc3__z_kernel_eq_skeleton]; unfold cc3__z_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The proof data of the pipeline on core `c`: the arrays as the region finds them; after the body at point `t` each
    input's buffer at its block and the output's at `out3` of the two input blocks; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.Region4.lean ====
/-
  Kernel region 4 of the program: the decoder, a 2048 by 2048 tile of the inner products of the unit-length embedding rows of one graph.
  Stated at a parameter `V`, the contents of the core's buffers when the region is entered: the block of each window at
  a grid point, what one run of the body leaves in the output window's buffer (its one whole-block store, as a function
  of the two input blocks), the body's triple, the proof data of the pipeline (after the body each input buffer still
  holds its block and the output buffer holds that function of them) and the body obligation at every point.
-/
import proofs.«146742_j70884140253432_2_alg».proof.Proof.Gen.KernelIdeal.Launch
import proofs.«146742_j70884140253432_2_alg».proof.Proof.Gen.KernelIdeal.Skeleton
import proofs.«146742_j70884140253432_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input window's current buffer holds its block at every point, whether the point fetches it or the block
    index has not moved since it was fetched. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The second input window likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev ra4 : Rect S1x2048x16 := Rect.unit (s := S1x2048x16) ![0, 0, 0] S1x2048x16.size inb_S1x2048x16_S1x2048x16_0_0_0
abbrev rb4 : Rect S1x2048x16 := Rect.unit (s := S1x2048x16) ![0, 0, 0] S1x2048x16.size inb_S1x2048x16_S1x2048x16_0_0_0
abbrev rc4 : Rect S1x2048x2048 := Rect.unit (s := S1x2048x2048) ![0, 0, 0] S1x2048x2048.size inb_S1x2048x2048_S1x2048x2048_0_0_0

/-- What the body leaves in the output window's buffer: its one store, of the payload of the two loaded blocks. -/
def out4 (x0 : Vec F S1x2048x16 .f32) (x1 : Vec F S1x2048x16 .f32) : Vec F S1x2048x2048 .f32 :=
  View.canon [⟨rc4, k4_pay1 (View.ld x0 ra4) (View.ld x1 rb4)⟩]

/-- That store covers the whole buffer. -/
theorem cover4 (p0 : Vec F S1x2048x2048 .f32) (y : S1x2048x2048.Idx) :
    ∃ pc ∈ ([⟨rc4, p0⟩] : List (View.Piece (Elt F) S1x2048x2048 .f32)), y ∈ pc.1.set :=
  View.cover_of_tiled [⟨rc4, p0⟩] S1x2048x2048.size (by rfl) y

set_option maxHeartbeats 1000000 in
/-- The body on whole buffers, the inputs' at contents `x0`, `x1` and the output's at anything: it runs to the
    continuation with the inputs' buffers unchanged and the output's at `out4 x0 x1`. -/
theorem sound_kernel4 (c : Dev nD) (E : Set ℕ) (i : grid4.Coords) (arg0 : Memref sig .tc .vmem S1x2048x16 .f32) (harg0 : arg0.IsWhole) (arg1 : Memref sig .tc .vmem S1x2048x16 .f32) (harg1 : arg1.IsWhole)
    (arg2 : Memref sig .tc .vmem S1x2048x2048 .f32) (harg2 : arg2.IsWhole)
    (x0 : Vec F S1x2048x16 .f32) (x1 : Vec F S1x2048x16 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4 x0 x1)) -∗ K ⟨⟩))
      ⊢ wp frame (wpE (defs₀ (F := F)) Variants.none c none) E (cc4__recon_kernel i arg0 harg0 arg1 harg1 arg2 harg2) K := by
  simp only [cc4__recon_kernel_eq_skeleton]; unfold cc4__recon_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4 _)

/-- The proof data of the pipeline on core `c`: the arrays as the region finds them; after the body at point `t` each
    input's buffer at its block and the output's at `out4` of the two input blocks; the two input windows read ONE array, held at its left and right half shares, the output's array at the full share; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.Run.lean ====
/-
  The five kernel regions in sequence. Between two regions core `c` holds every unscoped buffer whole at known
  contents: at launch the launch memory; after a region, that region's arrays at what its write-backs leave and every
  other buffer unchanged. The regions' proof data are stated at those contents, each region is a segment from one
  boundary to the next, and the last region's arrays are kept as it leaves them, to be read against the final state.
  The decoder's two input windows read one array, whose full share is dealt to them as its two halves.
-/
import proofs.«146742_j70884140253432_2_alg».proof.Proof.Region0
import proofs.«146742_j70884140253432_2_alg».proof.Proof.Region1
import proofs.«146742_j70884140253432_2_alg».proof.Proof.Region2
import proofs.«146742_j70884140253432_2_alg».proof.Proof.Region3
import proofs.«146742_j70884140253432_2_alg».proof.Proof.Region4

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the core's own references. -/
abbrev V0 : (c : Dev nD) → (b : Ref sig .tc) → Buf (Elt F) ((c : Thread nD τ).loc b) := fun c b => W0 m ρ c b

/-- After region 0: its arrays at what its write-backs leave, every other buffer as the region found it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's own references. -/
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as the region found it. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's own references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what its write-backs leave, every other buffer as the region found it. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the core's own references. -/
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what its write-backs leave, every other buffer as the region found it. -/
def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the core's own references. -/
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-! ## The proof data family and the thread state -/

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Regions 0 to 3 as segments -/

set_option backward.isDefEq.respectTransparency.types false in
/-- Region 0 over the thread state "every unscoped buffer at the boundary's contents, the generator register at some
    state, nothing owed": its arrays are split out of the unscoped buffers at entry and put back at the contents the
    region leaves at exit; the register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at the contents the
    region leaves at exit; the register goes into the region's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers at entry and put back at the contents the
    region leaves at exit; the register goes into the region's invariant and comes back. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at some
    state, nothing owed": its arrays are split out of the unscoped buffers at entry and put back at the contents the
    region leaves at exit; the register goes into the region's invariant and comes back. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: one array behind two input windows -/

section Shared

variable (V : (c : Dev nD) → (b : Ref sig .tc) → Buf (Elt F) ((c : Thread nD τ).loc b))

/-- Region 4's arrays as three points-tos: the embeddings' buffer at its left half share for the first input window and at
    its right half share for the second, the result's buffer at the full share. -/
theorem arrays4_eq (c : Dev nD) (Fa : (w : Fin cfg4.W) → Buf (Elt F) ((cfg4.win w).arr.view.loc (c : Thread nD τ))) :
    ((dat4 V c).arrays Fa : sProp 𝕄)
      = iprop((((c : Thread nD τ).loc main_v3) ↦{fullShare.left} Fa 0) ∗ (((c : Thread nD τ).loc main_v3) ↦{fullShare.right} Fa 1)
          ∗ (((c : Thread nD τ).loc main_v4) ↦{fullShare} Fa 2)) := by
  unfold Dat.arrays
  rw [bigSep_W4]
  have s0 : (dat4 V c).share 0 = fullShare.left := rfl
  have s1 : (dat4 V c).share 1 = fullShare.right := rfl
  have s2 : (dat4 V c).share 2 = fullShare := rfl
  rw [s0, s1, s2, (arr_whole4 0).set_eq_univ, (arr_whole4 2).set_eq_univ]

/-- The two distinct buffers behind region 4's three arrays. -/
theorem arrBufs4_eq (c : Dev nD) (V' : (b : Ref sig .tc) → Buf (Elt F) ((c : Thread nD τ).loc b)) :
    (Pipeline.arrBufs (Ix := Unit) (Name := ℕ) (U := UR sig nD τ) (Lvl := ℕ) spec4 c V' : sProp 𝕄)
      = iprop((((c : Thread nD τ).loc main_v3) ↦{fullShare} V' main_v3) ∗ (((c : Thread nD τ).loc main_v4) ↦{fullShare} V' main_v4)) := by
  unfold Pipeline.arrBufs
  rw [show Finset.univ.image (Pipeline.arrRef spec4) = insert main_v3 ({main_v4} : Finset (Ref sig .tc)) from by decide,
    BI.bigSep_insert (by decide), BI.bigSep_singleton]
  rfl

/-- At entry the embeddings' buffer, whole at the full share, is dealt to the two input windows as its two halves. -/
theorem hsplit4 (c : Dev nD) :
    (Pipeline.arrBufs (Ix := Unit) (Name := ℕ) (U := UR sig nD τ) (Lvl := ℕ) spec4 c (V c) : sProp 𝕄)
      ⊢ (dat4 V c).arrays ((dat4 V c).arrAt · 0) := by
  rw [arrBufs4_eq, arrays4_eq]
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

end Shared

/-- The last thread state: region 4's arrays as it leaves them, every other unscoped buffer as region 4 found it, the
    generator register at some state. -/
abbrev Tₙ (c : Dev nD) : sProp 𝕄 :=
  iprop((dat4 (V4 m ρ) c).arrays ((dat4 (V4 m ρ) c).arrAt · cfg4.N)
    ∗ Pipeline.unscopedRest (Ix := Unit) (Name := ℕ) (U := UR sig nD τ) (Lvl := ℕ) spec4 c (V4 m ρ c) ∗ ∃ r, prngReg c r)

set_option backward.isDefEq.respectTransparency.types false in
/-- Region 4 over the thread state: entered from every unscoped buffer at the contents region 3 leaves; its arrays are
    split out with the shared buffer halved; it is the last item, so its arrays stay as it leaves them. -/
def reg4 : Pipeline.RegionSeg (pcfgs (F := F)) adm (pdats m ρ) () defs₀ 𝒱₀ L lv 4 where
  win := winFacts₀4
  block_pos := block_pos4
  stage_whole := stage_whole4
  K := PEmpty
  osem k := k.elim
  ho := Pipeline.OwnSemFacts.none _
  hbody c := (body_obligation4 (V4 m ρ) c).loose
  hwaits := Pipeline.hwaits_of_owed_zero _ _ _ _ L lv 4 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m ρ c)
  hentry c := by
    rw [Pipeline.ownSems0_none]
    have hs := Pipeline.unscopedBufs_split₀ (Ix := Unit) (Name := ℕ) (U := UR sig nD τ) (Lvl := ℕ) cfgs 4 winFacts₀4.arr_unscoped c (V4 m ρ c)
    rw [Pipeline.unscopedBufs_held] at hs
    have hsplit : (StableHlo.held (c : Thread nD τ) (Pipeline.ucRefs τ sig) (W4 m ρ c) : sProp 𝕄)
        ⊢ iprop((dat4 (V4 m ρ) c).arrays ((dat4 (V4 m ρ) c).arrAt · 0)
            ∗ Pipeline.unscopedRest (Ix := Unit) (Name := ℕ) (U := UR sig nD τ) (Lvl := ℕ) spec4 c (V4 m ρ c)) :=
      (Entails.of_eq hs).trans (sep_mono (hsplit4 (V4 m ρ) c) .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.Dat.owesAt Pipeline.owesWithin
    icases HO with ⟨%W, -, HO⟩; iexists W; iexact HO

/-! ## The arguments at the last boundary: no region writes one -/

theorem V4_main_arg0 (c : Dev nD) : V4 m ρ c main_arg0 = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem V3_main_arg1 (c : Dev nD) : V3 m ρ c main_arg1 = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl
theorem V4_main_arg1 (c : Dev nD) : V4 m ρ c main_arg1 = m ((c : Thread nD τ).loc main_arg1) :=
  ((W4_arr m ρ c 0).trans (((dat3 (V3 m ρ) c).arrAt_in 0 rfl _).trans (A_eq3 (V3 m ρ) c 0))).trans (V3_main_arg1 m ρ c)
theorem V4_main_arg2 (c : Dev nD) : V4 m ρ c main_arg2 = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem V2_main_arg3 (c : Dev nD) : V2 m ρ c main_arg3 = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
theorem V4_main_arg3 (c : Dev nD) : V4 m ρ c main_arg3 = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (W3_arr m ρ c 1).trans (((dat2 (V2 m ρ) c).arrAt_in 1 rfl _).trans (A_eq2 (V2 m ρ) c 1))
    _ = m ((c : Thread nD τ).loc main_arg3) := V2_main_arg3 m ρ c

/-! ## What each region reads: the earlier regions' results and the arguments -/

theorem V1_main_arg1 (c : Dev nD) : V1 m ρ c main_arg1 = m ((c : Thread nD τ).loc main_arg1) :=
  (W1_of_ne m ρ c main_arg1 (by decide)).trans rfl
theorem V1_main_v0 (c : Dev nD) : V1 m ρ c main_v0 = (dat0 (V0 m ρ) c).arrAt 2 cfg0.N := W1_arr m ρ c 2
theorem V2_main_v1 (c : Dev nD) : V2 m ρ c main_v1 = (dat1 (V1 m ρ) c).arrAt 2 cfg1.N := W2_arr m ρ c 2
theorem V3_main_v2 (c : Dev nD) : V3 m ρ c main_v2 = (dat2 (V2 m ρ) c).arrAt 2 cfg2.N := W3_arr m ρ c 2
theorem V4_main_v3 (c : Dev nD) : V4 m ρ c main_v3 = (dat3 (V3 m ρ) c).arrAt 2 cfg3.N := W4_arr m ρ c 2

/-! ## @main as segments, and the launch -/

abbrev segs : List (Pipeline.Seg (pcfgs (F := F)) adm (pdats m ρ) () defs₀ 𝒱₀ L lv) :=
  [ .region (reg0 m ρ), .region (reg1 m ρ), .region (reg2 m ρ), .region (reg3 m ρ), .region (reg4 m ρ) ]

theorem main_run (c : Dev nD) : main (F := F) c = Pipeline.Seg.run (segs m ρ) :=
  main_segs adm (pdats m ρ) () 𝒱₀ L lv (reg0 m ρ) (reg1 m ρ) (reg2 m ρ) (reg3 m ρ) (reg4 m ρ) c

set_option backward.isDefEq.respectTransparency.types false in
/-- THE RUN: from any memory with zero counters every weakly fair execution of @main terminates, nothing faulting, and in
    every final state the result's buffer holds what region 4's write-backs leave and each argument what it held at launch. -/
theorem run_all : θ_run defs (onTc (τ := τ) (main (F := F))) ⟨m, fun _ => 0, ρ⟩ (fun r => ∀ c : Dev nD,
      r.2.mem ((c.tc : Thread nD τ).loc main_v4) = (dat4 (V4 m ρ) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v4) = (dat4 (V4 m ρ) c).arrAt 2 cfg4.N
      ∧ ∀ b ∈ Pipeline.restRefs sig spec4, s.mem ((c.tc : Thread nD τ).loc b) = V4 m ρ c b)
    (hfin := fun c s' => by
      rw [show Tₙ m ρ c = iprop(((((c : Thread nD τ).loc main_v3) ↦{fullShare.left} (dat4 (V4 m ρ) c).arrAt 0 cfg4.N)
            ∗ (((c : Thread nD τ).loc main_v3) ↦{fullShare.right} (dat4 (V4 m ρ) c).arrAt 1 cfg4.N)
            ∗ (((c : Thread nD τ).loc main_v4) ↦{fullShare} (dat4 (V4 m ρ) c).arrAt 2 cfg4.N))
          ∗ Pipeline.unscopedRest (Ix := Unit) (Name := ℕ) (U := UR sig nD τ) (Lvl := ℕ) spec4 c (V4 m ρ c) ∗ ∃ r, prngReg c r)
        from by unfold Tₙ; rw [arrays4_eq]]
      iintro ⟨⟨⟨-, -, H4⟩, HU, -⟩, HSI⟩
      icombine HSI H4 gives %h4
      unfold Pipeline.unscopedRest
      ihave Hr := (pointsTo_read_all (Pipeline.restRefs sig spec4) (fun b => (c.tc : Thread nD τ).loc b) (V4 m ρ c) s') $$ [HU HSI]
      · isplitl [HU] <;> iassumption
      icases Hr with ⟨%hU, HSI⟩
      imodintro
      isplitr
      · ipureintro; exact ⟨Buf.eq_of_forall_mem_univ h4, hU⟩
      · iexact HSI)
    (hQ := fun s h c =>
      ⟨(h c).1,
        ((h c).2 main_arg0 (by decide)).trans (V4_main_arg0 m ρ c),
        ((h c).2 main_arg1 (by decide)).trans (V4_main_arg1 m ρ c),
        ((h c).2 main_arg2 (by decide)).trans (V4_main_arg2 m ρ c),
        ((h c).2 main_arg3 (by decide)).trans (V4_main_arg3 m ρ c)⟩)

end Cert.KernelIdeal.Rg

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.PayloadMatmul.lean ====
/-
  The four matrix-product kernels read at an entry.

  Each of the first four kernels receives two blocks with a leading axis of extent one, drops that axis, multiplies the
  [M, K] block by the [K, N] block on the matrix unit into a zero accumulator, and puts the unit axis back; the second
  kernel also clamps every entry below at zero. Read over the extended reals at the entry (u, p, q) of the stored block,
  the value is the inner product of row p of the left block with column q of the right one,

      Σ_{k < K} l[0, p, k] · r[0, k, q],

  and, for the clamped kernel, the larger of that sum and the value of the zero word.
-/
import proofs.«146742_j70884140253432_2_alg».proof.Proof.Gen.KernelIdeal.Skeleton
import proofs.«146742_j70884140253432_2_alg».proof.Proof.LibMatmulNN
import Idealize.ShloMosaic.Lib.ValueLayout
import Idealize.ShloMosaic.Lib.ValueIdx
import Idealize.ShloMosaic.PureOps.Ideal.Laws

noncomputable section

open scoped BigOperators

namespace Cert.KernelIdeal.PayloadEntries

open Cert.KernelIdeal Cert.KernelIdeal.Gen Idealize.ShloMosaic Idealize.ShloMosaic.ValueIdx

/-- A product of an [M, K] block by a [K, N] block, both carried with a leading unit axis that is dropped before the
    product and restored after it, accumulated into zeros: at (u, p, q) the inner product of row p with column q. -/
theorem unitBlockProduct_entry {M K N : Nat}
    (l : (⟨3, ![1, M, K]⟩ : Shape).Idx → EReal) (r : (⟨3, ![1, K, N]⟩ : Shape).Idx → EReal)
    (hl : (⟨3, ![1, M, K]⟩ : Shape).ShapeCasts ⟨2, ![M, K]⟩) (hr : (⟨3, ![1, K, N]⟩ : Shape).ShapeCasts ⟨2, ![K, N]⟩)
    (ho : (⟨2, ![M, N]⟩ : Shape).ShapeCasts ⟨3, ![1, M, N]⟩)
    (D : DotDims ⟨2, ![M, K]⟩ ⟨2, ![K, N]⟩ ⟨2, ![M, N]⟩) (hD : D = DotDims.plain M K N)
    (u : Fin 1) (p : Fin M) (q : Fin N) :
    shapeCast ⟨3, ![1, M, N]⟩
        (matmul (F := Ideal) (φ₁ := .f32) (φ₂ := .f32) D none (shapeCast ⟨2, ![M, K]⟩ l hl) (shapeCast ⟨2, ![K, N]⟩ r hr)
          (constant (F := Ideal) ⟨2, ![M, N]⟩ .f32 0x00000000#32)) ho (ix3 u p q)
      = ∑ k : Fin K, l (ix3 (0 : Fin 1) p k) * r (ix3 (0 : Fin 1) k q) := by
  refine (shapeCast_ab_1ab_apply _ ho u p q).trans ?_
  refine (Cert.MatmulNN.matmul_zero_apply D hD none _ _ p q).trans ?_
  refine Finset.sum_congr rfl fun k _ => ?_
  rw [shapeCast_1ab_ab_apply l hl p k, shapeCast_1ab_ab_apply r hr k q]

/-- The first kernel's block: features times weights, at (u, p, q). -/
theorem pay0_entry (v0 : Vec Ideal S1x4096x128 .f32) (v2 : Vec Ideal S1x128x64 .f32) (u : Fin 1) (p : Fin 4096) (q : Fin 64) :
    k0_pay1 (F := Ideal) v0 v2 (ix3 u p q) = ∑ k : Fin 128, v0 (ix3 (0 : Fin 1) p k) * v2 (ix3 (0 : Fin 1) k q) :=
  unitBlockProduct_entry v0 v2 _ _ _ _ rfl u p q

/-- The second kernel's block: adjacency rows times the first product, clamped below at zero, at (u, p, q). -/
theorem pay1_entry (v0 : Vec Ideal S1x1024x4096 .f32) (v2 : Vec Ideal S1x4096x64 .f32) (u : Fin 1) (p : Fin 1024) (q : Fin 64) :
    k1_pay1 (F := Ideal) v0 v2 (ix3 u p q)
      = max (∑ k : Fin 4096, v0 (ix3 (0 : Fin 1) p k) * v2 (ix3 (0 : Fin 1) k q)) (Ideal.ofBits .f32 0x00000000#32) := by
  unfold k1_pay1
  refine (shapeCast_ab_1ab_apply _ _ u p q).trans ?_
  show max _ _ = max _ _
  refine congrArg₂ max ?_ rfl
  refine (Cert.MatmulNN.matmul_zero_apply _ rfl none _ _ p q).trans ?_
  refine Finset.sum_congr rfl fun k _ => ?_
  rw [shapeCast_1ab_ab_apply v0 _ p k, shapeCast_1ab_ab_apply v2 _ k q]

/-- The third kernel's block: hidden features times the second weights, at (u, p, q). -/
theorem pay2_entry (v0 : Vec Ideal S1x4096x64 .f32) (v2 : Vec Ideal S1x64x16 .f32) (u : Fin 1) (p : Fin 4096) (q : Fin 16) :
    k2_pay1 (F := Ideal) v0 v2 (ix3 u p q) = ∑ k : Fin 64, v0 (ix3 (0 : Fin 1) p k) * v2 (ix3 (0 : Fin 1) k q) :=
  unitBlockProduct_entry v0 v2 _ _ _ _ rfl u p q

/-- The fourth kernel's block: adjacency rows times the third product, at (u, p, q). -/
theorem pay3_entry (v0 : Vec Ideal S1x1024x4096 .f32) (v2 : Vec Ideal S1x4096x16 .f32) (u : Fin 1) (p : Fin 1024) (q : Fin 16) :
    k3_pay1 (F := Ideal) v0 v2 (ix3 u p q) = ∑ k : Fin 4096, v0 (ix3 (0 : Fin 1) p k) * v2 (ix3 (0 : Fin 1) k q) :=
  unitBlockProduct_entry v0 v2 _ _ _ _ rfl u p q

end Cert.KernelIdeal.PayloadEntries

end
-- ==== Proof.Spec.lean ====
/-
  The function both programs compute, as whole-array functions over the extended reals.

  A batch of four graphs, each with 4096 nodes: node features `x` (128 per node), a dense weighted adjacency `adj`,
  and two weight matrices per graph. A graph-convolution layer multiplies the features by the weights and then the
  adjacency by that product; the first layer is clamped below at zero. The embedding of each node (16 numbers) is
  divided by its Euclidean length, and the reconstruction is the matrix of inner products of those unit rows.
  Each step is one function from arrays to an array, read entry by entry; `recon` is their composition.
-/
import Idealize.ShloMosaic.PureOps.Ideal
import Idealize.ShloMosaic.Lib.ValueIdx

noncomputable section

open scoped BigOperators

namespace Cert.Spec

open Idealize.ShloMosaic Idealize.ShloMosaic.ValueIdx

/-- A rank-3 array of extended reals with extents `a`, `b`, `c`. -/
abbrev A3 (a b c : Nat) : Type := (⟨3, ![a, b, c]⟩ : Shape).Idx → EReal

/-- The batched matrix product: entry `(g, p, q)` is the sum over `k` of `l[g,p,k] · r[g,k,q]`. -/
def bmm {B M K N : Nat} (l : A3 B M K) (r : A3 B K N) : A3 B M N :=
  fun i => ∑ k : Fin K, l (ix3 (i 0) (i 1) k) * r (ix3 (i 0) k (i 2))

/-- Every entry clamped below at the value of the 32-bit zero word. -/
def relu0 {B M N : Nat} (a : A3 B M N) : A3 B M N :=
  fun i => max (a i) (Ideal.ofBits .f32 0x00000000#32)

/-- Every row `(g, p, ·)` divided by the square root of the sum of its squares. -/
def unitRows {B M D : Nat} (z : A3 B M D) : A3 B M D :=
  fun i => Ideal.div (z i) (Ideal.sqrt (∑ e : Fin D, z (ix3 (i 0) (i 1) e) * z (ix3 (i 0) (i 1) e)))

/-- The inner products of the rows: entry `(g, p, q)` is the sum over `d` of `u[g,p,d] · u[g,q,d]`. -/
def gram {B M D : Nat} (u : A3 B M D) : A3 B M M :=
  fun i => ∑ d : Fin D, u (ix3 (i 0) (i 1) d) * u (ix3 (i 0) (i 2) d)

/-- Two graph-convolution layers, the first clamped at zero, then the inner products of the unit embeddings. -/
def recon (x : A3 4 4096 128) (adj : A3 4 4096 4096) (w1 : A3 4 128 64) (w2 : A3 4 64 16) : A3 4 4096 4096 :=
  gram (unitRows (bmm adj (bmm (relu0 (bmm adj (bmm x w1))) w2)))

theorem bmm_apply {B M K N : Nat} (l : A3 B M K) (r : A3 B K N) (g : Fin B) (p : Fin M) (q : Fin N) :
    bmm l r (ix3 g p q) = ∑ k : Fin K, l (ix3 g p k) * r (ix3 g k q) := rfl

theorem relu0_apply {B M N : Nat} (a : A3 B M N) (i : (⟨3, ![B, M, N]⟩ : Shape).Idx) :
    relu0 a i = max (a i) (Ideal.ofBits .f32 0x00000000#32) := rfl

theorem unitRows_apply {B M D : Nat} (z : A3 B M D) (g : Fin B) (p : Fin M) (d : Fin D) :
    unitRows z (ix3 g p d) = Ideal.div (z (ix3 g p d)) (Ideal.sqrt (∑ e : Fin D, z (ix3 g p e) * z (ix3 g p e))) := rfl

theorem gram_apply {B M D : Nat} (u : A3 B M D) (g : Fin B) (p q : Fin M) :
    gram u (ix3 g p q) = ∑ d : Fin D, u (ix3 g p d) * u (ix3 g q d) := rfl

end Cert.Spec

end
-- ==== Proof.Final0.lean ====
/-
  Kernel region 0, from blocks to the whole array: the node features of each graph times its first weight matrix.
  Each grid point writes one block of the output array, and that block is the body's one store of the two input
  blocks the point was given. Read at an entry, the store is a sum of products over the contracted coordinate of the
  two blocks; an entry of a block is the entry of its array at block index times block extent plus the coordinate
  inside the block, on every axis. So what a point writes is the matching block of one whole-array function of the two
  input arrays. The blocks of all the points tile the output array, so after the last point the array is that function.
-/
import proofs.«146742_j70884140253432_2_alg».proof.Proof.Region0
import proofs.«146742_j70884140253432_2_alg».proof.Proof.PayloadMatmul
import proofs.«146742_j70884140253432_2_alg».proof.Proof.Spec
import Idealize.ShloMosaic.Lib.Pipeline.Value

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz3 : (![0, 0, 0] : Fin 3 → Nat) = fun _ => 0 := funext fun a => by fin_cases a <;> rfl

/-- The array region 0 leaves: the node features times the first weights, graph by graph. -/
abbrev G0 (c : Dev nD) : S4x4096x64.Idx → EReal :=
  Cert.Spec.bmm (B := 4) (M := 4096) (K := 128) (N := 64) (V c main_arg0) (V c main_arg2)

/-- The block index of each window at each of the four points: the point's number on the graph axis, zero on the others. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The graph a grid point handles: the grid has one point per graph. -/
abbrev gOf0 (t : Fin cfg0.N) : Fin 4 := ⟨t.val, lt_of_lt_of_eq t.isLt N_0⟩

/-- What point `t` writes back is block `t` of `G0`: all 4096 × 64 entries of graph `t`. -/
theorem flushed0_eq (c : Dev nD) (t : Fin cfg0.N) :
    (Rg.dat0 (F := Ideal) V c).flushed 2 t = ((cfg0.win 2).blk t).view.read (Elt Ideal) (G0 V c) := by
  show (cfg0.win 2).cut (grid0.coords t) ((Rg.dat0 (F := Ideal) V c).after 2 t) = _
  rw [Rg.after0_2]
  unfold Rg.out0
  rw [View.canon_unit_zero hz3]
  simp only [View.ld_unit_zero (S := S1x4096x128) hz3, View.ld_unit_zero (S := S1x128x64) hz3]
  obtain ⟨a00, a01, a02, a10, a11, a12, a20, a21, a22⟩ := idx_facts0 t
  funext j
  obtain ⟨u, p, q, rfl⟩ : ∃ (u : Fin 1) (p : Fin 4096) (q : Fin 64), j = ix3 u p q := ⟨j 0, j 1, j 2, eq_ix3 j⟩
  have hu : u.val = 0 := by omega
  show k0_pay1 (F := Ideal) (Rg.iblk0 V c 0 t) (Rg.iblk0 V c 1 t) (ix3 u p q)
    = G0 V c (((cfg0.win 2).blk t).view.emb (ix3 u p q))
  have hemb : ((cfg0.win 2).blk t).view.emb (ix3 u p q) = ix3 (gOf0 t) p q := by
    funext a; apply Fin.ext
    match a with
    | ⟨0, _⟩ => show win0_2.index t (0 : Fin 3) * 1 + 1 * u.val = t.val; omega
    | ⟨1, _⟩ => show win0_2.index t (1 : Fin 3) * 4096 + 1 * p.val = p.val; omega
    | ⟨2, _⟩ => show win0_2.index t (2 : Fin 3) * 64 + 1 * q.val = q.val; omega
  rw [hemb]
  refine (PayloadEntries.pay0_entry _ _ u p q).trans ?_
  refine (Finset.sum_congr rfl fun k _ => ?_).trans
    (Cert.Spec.bmm_apply (B := 4) (M := 4096) (K := 128) (N := 64) (V c main_arg0) (V c main_arg2) (gOf0 t) p q).symm
  have h0 : Rg.iblk0 V c 0 t (ix3 (0 : Fin 1) p k) = V c main_arg0 (ix3 (gOf0 t) p k) := by
    show V c main_arg0 (((cfg0.win 0).blk t).view.emb (ix3 (0 : Fin 1) p k)) = _
    refine congrArg (V c main_arg0) (funext fun a => Fin.ext ?_)
    match a with
    | ⟨0, _⟩ => show win0_0.index t (0 : Fin 3) * 1 + 1 * 0 = t.val; omega
    | ⟨1, _⟩ => show win0_0.index t (1 : Fin 3) * 4096 + 1 * p.val = p.val; omega
    | ⟨2, _⟩ => show win0_0.index t (2 : Fin 3) * 128 + 1 * k.val = k.val; omega
  have h1 : Rg.iblk0 V c 1 t (ix3 (0 : Fin 1) k q) = V c main_arg2 (ix3 (gOf0 t) k q) := by
    show V c main_arg2 (((cfg0.win 1).blk t).view.emb (ix3 (0 : Fin 1) k q)) = _
    refine congrArg (V c main_arg2) (funext fun a => Fin.ext ?_)
    match a with
    | ⟨0, _⟩ => show win0_1.index t (0 : Fin 3) * 1 + 1 * 0 = t.val; omega
    | ⟨1, _⟩ => show win0_1.index t (1 : Fin 3) * 128 + 1 * k.val = k.val; omega
    | ⟨2, _⟩ => show win0_1.index t (2 : Fin 3) * 64 + 1 * q.val = q.val; omega
  rw [h0, h1]

/-- An index of the output array lies in point `t`'s block iff each coordinate lies in the block's range on its axis. -/
theorem mem_blk0 (t : Fin cfg0.N) (i : S4x4096x64.Idx) :
    i ∈ ((cfg0.win 2).blk t).view.set ↔ ∀ a : Fin 3, win0_2.index t a * S1x4096x64.size a ≤ (i a).val
      ∧ (i a).val < win0_2.index t a * S1x4096x64.size a + S1x4096x64.size a := by
  show i ∈ ((View.whole main_v0).slice (win0_2.rect t)).set ↔ _
  rw [View.set_slice_whole, Rect.mem_set_unit]
  exact Iff.rfl

/-- Every entry `(g, p, q)` of the output lies in the block of the point that handles graph `g`. -/
theorem cover0 (i : S4x4096x64.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 64 := (i 2).isLt
  obtain ⟨t, ht⟩ : ∃ t : Fin cfg0.N, t.val = (i 0).val := ⟨⟨(i 0).val, lt_of_lt_of_eq h0 N_0.symm⟩, rfl⟩
  obtain ⟨-, -, -, -, -, -, a20, a21, a22⟩ := idx_facts0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 64 ≤ (i 2).val ∧ (i 2).val < win0_2.index t (2 : Fin 3) * 64 + 64; omega

/-- After region 0 the output array holds the product of the node features and the first weights, graph by graph. -/
theorem final0 (c : Dev nD) :
    (Rg.dat0 (F := Ideal) V c).arrAt 2 cfg0.N
      = Cert.Spec.bmm (B := 4) (M := 4096) (K := 128) (N := 64) (V c main_arg0) (V c main_arg2) :=
  (Rg.dat0 (F := Ideal) V c).arrAt_eq_of_cover 2 (G0 V c) (fun t _ => flushed0_eq V c t) cover0

end Cert.KernelIdeal.Whole
end
-- ==== Proof.Final1.lean ====
/-
  Kernel region 1, from blocks to the whole array: the adjacency of each graph times its first support product, clamped below at zero.
  Each grid point writes one block of the output array, and that block is the body's one store of the two input
  blocks the point was given. Read at an entry, the store is the maximum of the zero word and the sum, over the contracted
  coordinate, of the products of the two blocks' entries.
  An entry of a block is the entry of its array at block index times block extent plus the coordinate inside the
  block, on every axis. So what a point writes is the matching block of one whole-array function of the two input
  arrays. The blocks of all the points tile the output array, so after the last point the array is that function.
-/
import proofs.«146742_j70884140253432_2_alg».proof.Proof.Region1
import proofs.«146742_j70884140253432_2_alg».proof.Proof.PayloadMatmul
import proofs.«146742_j70884140253432_2_alg».proof.Proof.Spec
import Idealize.ShloMosaic.Lib.Pipeline.Value

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz3 : (![0, 0, 0] : Fin 3 → Nat) = fun _ => 0 := funext fun a => by fin_cases a <;> rfl

/-- The array region 1 leaves: the adjacency times the first support product, every entry clamped below at the zero word. -/
abbrev G1 (c : Dev nD) : S4x4096x64.Idx → EReal :=
  Cert.Spec.relu0 (B := 4) (M := 4096) (N := 64) (Cert.Spec.bmm (B := 4) (M := 4096) (K := 4096) (N := 64) (V c main_arg1) (V c main_v0))

/-- The block index of each window at each of the sixteen points. Point `t` handles graph `t / 4` and row block `t % 4`:
    the adjacency's and the output's blocks sit at (graph, row block, 0), the other operand's at (graph, 0, 0). -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- The graph grid point `t` handles: `t / 4`. -/
abbrev gOf1 (t : Fin cfg1.N) : Fin 4 := ⟨t.val / 4, by have h : t.val < 16 := lt_of_lt_of_eq t.isLt N_1; omega⟩
/-- The row of the array that row `p` of point `t`'s block is: row block `t % 4` holds rows `(t % 4) · 1024 + p`. -/
abbrev rOf1 (t : Fin cfg1.N) (p : Fin 1024) : Fin 4096 := ⟨t.val % 4 * 1024 + p.val, by have := p.isLt; omega⟩

/-- What point `t` writes back is block `t` of `G1`: 1024 rows of graph `t / 4`, all 64 columns. -/
theorem flushed1_eq (c : Dev nD) (t : Fin cfg1.N) :
    (Rg.dat1 (F := Ideal) V c).flushed 2 t = ((cfg1.win 2).blk t).view.read (Elt Ideal) (G1 V c) := by
  show (cfg1.win 2).cut (grid1.coords t) ((Rg.dat1 (F := Ideal) V c).after 2 t) = _
  rw [Rg.after1_2]
  unfold Rg.out1
  rw [View.canon_unit_zero hz3]
  simp only [View.ld_unit_zero (S := S1x1024x4096) hz3, View.ld_unit_zero (S := S1x4096x64) hz3]
  obtain ⟨a00, a01, a02, a10, a11, a12, a20, a21, a22⟩ := idx_facts1 t
  funext j
  obtain ⟨u, p, q, rfl⟩ : ∃ (u : Fin 1) (p : Fin 1024) (q : Fin 64), j = ix3 u p q := ⟨j 0, j 1, j 2, eq_ix3 j⟩
  have hu : u.val = 0 := by omega
  show k1_pay1 (F := Ideal) (Rg.iblk1 V c 0 t) (Rg.iblk1 V c 1 t) (ix3 u p q)
    = G1 V c (((cfg1.win 2).blk t).view.emb (ix3 u p q))
  have hemb : ((cfg1.win 2).blk t).view.emb (ix3 u p q) = ix3 (gOf1 t) (rOf1 t p) q := by
    funext a; apply Fin.ext
    match a with
    | ⟨0, _⟩ => show win1_2.index t (0 : Fin 3) * 1 + 1 * u.val = t.val / 4; omega
    | ⟨1, _⟩ => show win1_2.index t (1 : Fin 3) * 1024 + 1 * p.val = t.val % 4 * 1024 + p.val; omega
    | ⟨2, _⟩ => show win1_2.index t (2 : Fin 3) * 64 + 1 * q.val = q.val; omega
  rw [hemb]
  refine (PayloadEntries.pay1_entry _ _ u p q).trans ?_
  refine (congrArg (fun s => max s (Ideal.ofBits .f32 0x00000000#32)) ((Finset.sum_congr rfl fun k _ => ?_).trans
    (Cert.Spec.bmm_apply (B := 4) (M := 4096) (K := 4096) (N := 64) (V c main_arg1) (V c main_v0) (gOf1 t) (rOf1 t p) q).symm)).trans
    (Cert.Spec.relu0_apply (B := 4) (M := 4096) (N := 64) (Cert.Spec.bmm (B := 4) (M := 4096) (K := 4096) (N := 64) (V c main_arg1) (V c main_v0)) (ix3 (gOf1 t) (rOf1 t p) q)).symm
  have h0 : Rg.iblk1 V c 0 t (ix3 (0 : Fin 1) p k) = V c main_arg1 (ix3 (gOf1 t) (rOf1 t p) k) := by
    show V c main_arg1 (((cfg1.win 0).blk t).view.emb (ix3 (0 : Fin 1) p k)) = _
    refine congrArg (V c main_arg1) (funext fun a => Fin.ext ?_)
    match a with
    | ⟨0, _⟩ => show win1_0.index t (0 : Fin 3) * 1 + 1 * 0 = t.val / 4; omega
    | ⟨1, _⟩ => show win1_0.index t (1 : Fin 3) * 1024 + 1 * p.val = t.val % 4 * 1024 + p.val; omega
    | ⟨2, _⟩ => show win1_0.index t (2 : Fin 3) * 4096 + 1 * k.val = k.val; omega
  have h1 : Rg.iblk1 V c 1 t (ix3 (0 : Fin 1) k q) = V c main_v0 (ix3 (gOf1 t) k q) := by
    show V c main_v0 (((cfg1.win 1).blk t).view.emb (ix3 (0 : Fin 1) k q)) = _
    refine congrArg (V c main_v0) (funext fun a => Fin.ext ?_)
    match a with
    | ⟨0, _⟩ => show win1_1.index t (0 : Fin 3) * 1 + 1 * 0 = t.val / 4; omega
    | ⟨1, _⟩ => show win1_1.index t (1 : Fin 3) * 4096 + 1 * k.val = k.val; omega
    | ⟨2, _⟩ => show win1_1.index t (2 : Fin 3) * 64 + 1 * q.val = q.val; omega
  rw [h0, h1]

/-- An index of the output array lies in point `t`'s block iff each coordinate lies in the block's range on its axis. -/
theorem mem_blk1 (t : Fin cfg1.N) (i : S4x4096x64.Idx) :
    i ∈ ((cfg1.win 2).blk t).view.set ↔ ∀ a : Fin 3, win1_2.index t a * S1x1024x64.size a ≤ (i a).val
      ∧ (i a).val < win1_2.index t a * S1x1024x64.size a + S1x1024x64.size a := by
  show i ∈ ((View.whole main_v1).slice (win1_2.rect t)).set ↔ _
  rw [View.set_slice_whole, Rect.mem_set_unit]
  exact Iff.rfl

/-- Every entry `(g, r, q)` of the output lies in the block of point `4 g + r / 1024`. -/
theorem cover1 (i : S4x4096x64.Idx) :
    ∃ t : Fin cfg1.N, (cfg1.win 2).flush t = true ∧ i ∈ ((cfg1.win 2).blk t).view.set := by
  have h0 : (i 0).val < 4 := (i 0).isLt
  have h1 : (i 1).val < 4096 := (i 1).isLt
  have h2 : (i 2).val < 64 := (i 2).isLt
  obtain ⟨t, ht⟩ : ∃ t : Fin cfg1.N, t.val = 4 * (i 0).val + (i 1).val / 1024 :=
    ⟨⟨4 * (i 0).val + (i 1).val / 1024, lt_of_lt_of_eq (by omega : 4 * (i 0).val + (i 1).val / 1024 < 16) N_1.symm⟩, rfl⟩
  obtain ⟨-, -, -, -, -, -, a20, a21, a22⟩ := idx_facts1 t
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 64 ≤ (i 2).val ∧ (i 2).val < win1_2.index t (2 : Fin 3) * 64 + 64; omega

/-- After region 1 the output array holds the clamped product of the adjacency and the first support product, graph by graph. -/
theorem final1 (c : Dev nD) :
    (Rg.dat1 (F := Ideal) V c).arrAt 2 cfg1.N
      = Cert.Spec.relu0 (B := 4) (M := 4096) (N := 64) (Cert.Spec.bmm (B := 4) (M := 4096) (K := 4096) (N := 64) (V c main_arg1) (V c main_v0)) :=
  (Rg.dat1 (F := Ideal) V c).arrAt_eq_of_cover 2 (G1 V c) (fun t _ => flushed1_eq V c t) cover1

end Cert.KernelIdeal.Whole
end
-- ==== Proof.Final2.lean ====
/-
  Kernel region 2, from blocks to the whole array: the clamped hidden layer of each graph times its second weight matrix.
  Each grid point writes one block of the output array, and that block is the body's one store of the two input
  blocks the point was given. Read at an entry, the store is the sum, over the contracted coordinate, of the products of the two blocks' entries.
  An entry of a block is the entry of its array at block index times block extent plus the coordinate inside the
  block, on every axis. So what a point writes is the matching block of one whole-array function of the two input
  arrays. The blocks of all the points tile the output array, so after the last point the array is that function.
-/
import proofs.«146742_j70884140253432_2_alg».proof.Proof.Region2
import proofs.«146742_j70884140253432_2_alg».proof.Proof.PayloadMatmul
import proofs.«146742_j70884140253432_2_alg».proof.Proof.Spec
import Idealize.ShloMosaic.Lib.Pipeline.Value

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

private theorem hz3 : (![0, 0, 0] : Fin 3 → Nat) = fun _ => 0 := funext fun a => by fin_cases a <;> rfl

/-- The array region 2 leaves: the hidden layer times the second weights, graph by graph. -/
abbrev G2 (c : Dev nD) : S4x4096x16.Idx → EReal :=
  Cert.Spec.bmm (B := 4) (M := 4096) (K := 64) (N := 16) (V c main_v1) (V c main_arg3)

/-- The block index of each window at each of the four points: the point's number on the graph axis, zero on the others. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

/-- The graph a grid point handles: the grid has one point per graph. -/
abbrev gOf2 (t : Fin cfg2.N) : Fin 4 := ⟨t.val, lt_of_lt_of_eq t.isLt N_2⟩

/-- What point `t` writes back is block `t` of `G2`: all 4096 × 16 entries of graph `t`. -/
theorem flushed2_eq (c : Dev nD) (t : Fin cfg2.N) :
    (Rg.dat2 (F := Ideal) V c).flushed 2 t = ((cfg2.win 2).blk t).view.read (Elt Ideal) (G2 V c) := by
  show (cfg2.win 2).cut (grid2.coords t) ((Rg.dat2 (F := Ideal) V c).after 2 t) = _
  rw [Rg.after2_2]
  unfold Rg.out2
  rw [View.canon_unit_zero hz3]
  simp only [View.ld_unit_zero (S := S1x4096x64) hz3, View.ld_unit_zero (S := S1x64x16) hz3]
  obtain ⟨a00, a01, a02, a10, a11, a12, a20, a21, a22⟩ := idx_facts2 t
  funext j
  obtain ⟨u, p, q, rfl⟩ : ∃ (u : Fin 1) (p : Fin 4096) (q : Fin 16), j = ix3 u p q := ⟨j 0, j 1, j 2, eq_ix3 j⟩
  have hu : u.val = 0 := by omega
  show k2_pay1 (F := Ideal) (Rg.iblk2 V c 0 t) (Rg.iblk2 V c 1 t) (ix3 u p q)
    = G2 V c (((cfg2.win 2).blk t).view.emb (ix3 u p q))
  have hemb : ((cfg2.win 2).blk t).view.emb (ix3 u p q) = ix3 (gOf2 t) p q := by
    funext a; apply Fin.ext
    match a with
    | ⟨0, _⟩ => show win2_2.index t (0 : Fin 3) * 1 + 1 * u.val = t.val; omega
    | ⟨1, _⟩ => show win2_2.index t (1 : Fin 3) * 4096 + 1 * p.val = p.val; omega
    | ⟨2, _⟩ => show win2_2.index t (2 : Fin 3) * 16 + 1 * q.val = q.val; omega
  rw [hemb]
  refine (PayloadEntries.pay2_entry _ _ u p q).trans ?_
  refine (Finset.sum_congr rfl fun k _ => ?_).trans
    (Cert.Spec.bmm_apply (B := 4) (M := 4096) (K := 64) (N := 16) (V c main_v1) (V c main_arg3) (gOf2 t) p q).symm
  have h0 : Rg.iblk2 V c 0 t (ix3 (0 : Fin 1) p k) = V c main_v1 (ix3 (gOf2 t) p k) := by
    show V c main_v1 (((cfg2.win 0).blk t).view.emb (ix3 (0 : Fin 1) p k)) = _
    refine congrArg (V c main_v1) (funext fun a => Fin.ext ?_)
    match a with
    | ⟨0, _⟩ => show win2_0.index t (0 : Fin 3) * 1 + 1 * 0 = t.val; omega
    | ⟨1, _⟩ => show win2_0.index t (1 : Fin 3) * 4096 + 1 * p.val = p.val; omega
    | ⟨2, _⟩ => show win2_0.index t (2 : Fin 3) * 64 + 1 * k.val = k.val; omega
  have h1 : Rg.iblk2 V c 1 t (ix3 (0 : Fin 1) k q) = V c main_arg3 (ix3 (gOf2 t) k q) := by
    show V c main_arg3 (((cfg2.win 1).blk t).view.emb (ix3 (0 : Fin 1) k q)) = _
    refine congrArg (V c main_arg3) (funext fun a => Fin.ext ?_)
    match a with
    | ⟨0, _⟩ => show win2_1.index t (0 : Fin 3) * 1 + 1 * 0 = t.val; omega
    | ⟨1, _⟩ => show win2_1.index t (1 : Fin 3) * 64 + 1 * k.val = k.val; omega
    | ⟨2, _⟩ => show win2_1.index t (2 : Fin 3) * 16 + 1 * q.val = q.val; omega
  rw [h0, h1]

/-- An index of the output array lies in point `t`'s block iff each coordinate lies in the block's range on its axis. -/
theorem mem_blk2 (t : Fin cfg2.N) (i : S4x4096x16.Idx) :
    i ∈ ((cfg2.win 2).blk t).view.set ↔ ∀ a : Fin 3, win2_2.index t a * S1x4096x16.size a ≤ (i a).val
      ∧ (i a).val < win2_2.index t a * S1x4096x16.size a + S1x4096x16.size a := by
  show i ∈ ((View.whole main_v2).slice (win2_2.rect t)).set ↔ _
  rw [View.set_slice_whole, Rect.mem_set_unit]
  exact Iff.rfl

/-- Every entry `(g, p, q)` of the output lies in the block of the point that handles graph `g`. -/
theorem cover2 (i : S4x4096x16.Idx) :
    ∃ t : Fin cfg2.N, (cfg2.win 2).flush t = true ∧ i ∈ ((cfg2.win 2).blk t).view.set := by
  have h0 : (i 0).val < 4 := (i 0).isLt
  have h1 : (i 1).val < 4096 := (i 1).isLt
  have h2 : (i 2).val < 16 := (i 2).isLt
  obtain ⟨t, ht⟩ : ∃ t : Fin cfg2.N, t.val = (i 0).val := ⟨⟨(i 0).val, lt_of_lt_of_eq h0 N_2.symm⟩, rfl⟩
  obtain ⟨-, -, -, -, -, -, a20, a21, a22⟩ := idx_facts2 t
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 4096 ≤ (i 1).val ∧ (i 1).val < win2_2.index t (1 : Fin 3) * 4096 + 4096; omega
  | ⟨2, _⟩ => show win2_2.index t (2 : Fin 3) * 16 ≤ (i 2).val ∧ (i 2).val < win2_2.index t (2 : Fin 3) * 16 + 16; omega

/-- After region 2 the output array holds the product of the hidden layer and the second weights, graph by graph. -/
theorem final2 (c : Dev nD) :
    (Rg.dat2 (F := Ideal) V c).arrAt 2 cfg2.N
      = Cert.Spec.bmm (B := 4) (M := 4096) (K := 64) (N := 16) (V c main_v1) (V c main_arg3) :=
  (Rg.dat2 (F := Ideal) V c).arrAt_eq_of_cover 2 (G2 V c) (fun t _ => flushed2_eq V c t) cover2

end Cert.KernelIdeal.Whole
end
-- ==== Proof.Final3.lean ====
/-
  The second layer's aggregation: its output array after the region, as one function of the arrays the region finds.

  The region's grid has 4 · 4 points (graph g, row tile r). At a point the first input window holds rows
  1024·r … 1024·r + 1023 of graph g's adjacency (all 4096 columns), the second holds the whole 4096 by 16 matrix of
  graph g that the previous region produced, and the body writes their product, which the point writes back to rows
  1024·r … of graph g of the output. An entry (p, q) of that tile is therefore the entry (g, 1024·r + p, q) of the
  batched matrix product of the two arrays. The sixteen tiles fill the output, so after the region the output array
  is that product.
-/
import proofs.«146742_j70884140253432_2_alg».proof.Proof.Region3
import proofs.«146742_j70884140253432_2_alg».proof.Proof.PayloadMatmul
import proofs.«146742_j70884140253432_2_alg».proof.Proof.Spec
import Idealize.ShloMosaic.Lib.Pipeline.Value
import Idealize.ShloMosaic.Lib.ValueIdx

noncomputable section

open scoped BigOperators

namespace Cert.KernelIdeal.Fin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl

/-- The output array where the region's tiles cover it: the batched product of the adjacency with the matrix the
    previous region left. -/
abbrev G3 (c : Dev nD) : Cert.Spec.A3 4 4096 16 :=
  Cert.Spec.bmm (V c main_arg1 : Cert.Spec.A3 4 4096 4096) (V c main_v2 : Cert.Spec.A3 4 4096 16)

/-- One tile: if the first loaded block is the row tile r of graph g of an array A and the second is graph g of an
    array B, the body's payload at (u, p, q) is the entry (g, 1024·r + p, q) of the batched product of A and B. -/
theorem tile3_entry (A : Cert.Spec.A3 4 4096 4096) (B : Cert.Spec.A3 4 4096 16)
    (x0 : Vec Ideal S1x1024x4096 .f32) (x1 : Vec Ideal S1x4096x16 .f32) (g : Fin 4) (r : Fin 4)
    (h0 : ∀ (p : Fin 1024) (k : Fin 4096), x0 (ix3 (0 : Fin 1) p k) = A (ix3 g ⟨r.val * 1024 + p.val, by omega⟩ k))
    (h1 : ∀ (k : Fin 4096) (q : Fin 16), x1 (ix3 (0 : Fin 1) k q) = B (ix3 g k q))
    (u : Fin 1) (p : Fin 1024) (q : Fin 16) :
    k3_pay1 (F := Ideal) x0 x1 (ix3 u p q) = Cert.Spec.bmm A B (ix3 g ⟨r.val * 1024 + p.val, by omega⟩ q) := by
  rw [Cert.KernelIdeal.PayloadEntries.pay3_entry, Cert.Spec.bmm_apply]
  refine Finset.sum_congr rfl fun k _ => ?_
  rw [h0, h1]

/-- The printed index maps over the sixteen points: the first input moves with the output's graph and row tile at
    column block 0, the second with its graph alone at block (0, 0); and the output's block indices stay in range. -/
theorem idx_facts3 : ∀ t : Fin cfg3.N,
      win3_0.index t (0 : Fin 3) = win3_2.index t (0 : Fin 3) ∧ win3_0.index t (1 : Fin 3) = win3_2.index t (1 : Fin 3)
    ∧ win3_0.index t (2 : Fin 3) = 0
    ∧ win3_1.index t (0 : Fin 3) = win3_2.index t (0 : Fin 3) ∧ win3_1.index t (1 : Fin 3) = 0
    ∧ win3_1.index t (2 : Fin 3) = 0
    ∧ win3_2.index t (0 : Fin 3) ≤ 3 ∧ win3_2.index t (1 : Fin 3) ≤ 3 ∧ win3_2.index t (2 : Fin 3) = 0 :=
  (by decide +kernel : ∀ t : Fin grid3.N, _)

/-- Every tile (g, r) of the output is some point's. -/
theorem idx_onto3 : ∀ (q0 : Fin 4) (q1 : Fin 4), ∃ t : Fin cfg3.N, win3_2.index t = ![q0.val, q1.val, 0] :=
  (by decide +kernel : ∀ (q0 : Fin 4) (q1 : Fin 4), ∃ t : Fin grid3.N, win3_2.index t = ![q0.val, q1.val, 0])

/-- The first input window's block at point t: rows of the adjacency of the output tile's graph and row tile. -/
theorem iblk3_0_apply (c : Dev nD) (t : Fin cfg3.N) (g : Fin 4) (r : Fin 4)
    (hg : win3_2.index t (0 : Fin 3) = g.val) (hr : win3_2.index t (1 : Fin 3) = r.val) (p : Fin 1024) (k : Fin 4096) :
    (Rg.iblk3 V c 0 t : Vec Ideal S1x1024x4096 .f32) (ix3 (0 : Fin 1) p k)
      = (V c main_arg1 : Cert.Spec.A3 4 4096 4096) (ix3 g ⟨r.val * 1024 + p.val, by omega⟩ k) := by
  obtain ⟨e0, e1, e2, -, -, -, -, -, -⟩ := idx_facts3 t
  unfold Rg.iblk3
  rw [View.read_apply]
  show V c main_arg1 _ = V c main_arg1 _
  congr 1
  funext a
  apply Fin.ext
  match a with
  | ⟨0, _⟩ => show win3_0.index t (0 : Fin 3) * 1 + 1 * 0 = g.val; omega
  | ⟨1, _⟩ => show win3_0.index t (1 : Fin 3) * 1024 + 1 * p.val = r.val * 1024 + p.val; omega
  | ⟨2, _⟩ => show win3_0.index t (2 : Fin 3) * 4096 + 1 * k.val = k.val; omega

/-- The second input window's block at point t: the whole matrix of the output tile's graph. -/
theorem iblk3_1_apply (c : Dev nD) (t : Fin cfg3.N) (g : Fin 4)
    (hg : win3_2.index t (0 : Fin 3) = g.val) (k : Fin 4096) (q : Fin 16) :
    (Rg.iblk3 V c 1 t : Vec Ideal S1x4096x16 .f32) (ix3 (0 : Fin 1) k q)
      = (V c main_v2 : Cert.Spec.A3 4 4096 16) (ix3 g k q) := by
  obtain ⟨-, -, -, e0, e1, e2, -, -, -⟩ := idx_facts3 t
  unfold Rg.iblk3
  rw [View.read_apply]
  show V c main_v2 _ = V c main_v2 _
  congr 1
  funext a
  apply Fin.ext
  match a with
  | ⟨0, _⟩ => show win3_1.index t (0 : Fin 3) * 1 + 1 * 0 = g.val; omega
  | ⟨1, _⟩ => show win3_1.index t (1 : Fin 3) * 4096 + 1 * k.val = k.val; omega
  | ⟨2, _⟩ => show win3_1.index t (2 : Fin 3) * 16 + 1 * q.val = q.val; omega

/-- What point t writes back is tile t of the batched product. -/
theorem flushed3_eq (c : Dev nD) (t : Fin cfg3.N) :
    (Rg.dat3 (F := Ideal) V c).flushed 2 t = ((cfg3.win 2).blk t).view.read (Elt Ideal) (G3 V c) := by
  show (cfg3.win 2).cut (grid3.coords t) ((Rg.dat3 (F := Ideal) V c).after 2 t) = _
  rw [Rg.after3_2]
  unfold Rg.out3
  rw [View.canon_unit_zero zeros3]
  simp only [View.ld_unit_zero (S := S1x1024x4096) zeros3, View.ld_unit_zero (S := S1x4096x16) zeros3]
  obtain ⟨-, -, -, -, -, -, b0, b1, b2⟩ := idx_facts3 t
  funext j
  obtain ⟨u, p, q, rfl⟩ : ∃ (u : Fin 1) (p : Fin 1024) (q : Fin 16), j = ix3 u p q := ⟨j 0, j 1, j 2, eq_ix3 j⟩
  have key := tile3_entry (V c main_arg1 : Cert.Spec.A3 4 4096 4096) (V c main_v2 : Cert.Spec.A3 4 4096 16)
    (Rg.iblk3 V c 0 t) (Rg.iblk3 V c 1 t)
    ⟨win3_2.index t (0 : Fin 3), by omega⟩ ⟨win3_2.index t (1 : Fin 3), by omega⟩
    (iblk3_0_apply V c t ⟨win3_2.index t (0 : Fin 3), by omega⟩ ⟨win3_2.index t (1 : Fin 3), by omega⟩ rfl rfl)
    (iblk3_1_apply V c t ⟨win3_2.index t (0 : Fin 3), by omega⟩ rfl) u p q
  refine key.trans ?_
  rw [View.read_apply]
  refine congrArg (G3 V c) ?_
  funext a
  apply Fin.ext
  have hu : u.val = 0 := by omega
  match a with
  | ⟨0, _⟩ => show win3_2.index t (0 : Fin 3) = win3_2.index t (0 : Fin 3) * 1 + 1 * u.val; omega
  | ⟨1, _⟩ => show win3_2.index t (1 : Fin 3) * 1024 + p.val = win3_2.index t (1 : Fin 3) * 1024 + 1 * p.val; omega
  | ⟨2, _⟩ => show q.val = win3_2.index t (2 : Fin 3) * 16 + 1 * q.val; omega

/-- An index of the output array is in point t's tile iff each coordinate is in the tile's range on its axis. -/
theorem mem_blk3 (t : Fin cfg3.N) (i : S4x4096x16.Idx) :
    i ∈ ((cfg3.win 2).blk t).view.set ↔ ∀ a : Fin 3, win3_2.index t a * S1x1024x16.size a ≤ (i a).val
      ∧ (i a).val < win3_2.index t a * S1x1024x16.size a + S1x1024x16.size a := by
  show i ∈ ((View.whole main_v3).slice (win3_2.rect t)).set ↔ _
  rw [View.set_slice_whole, Rect.mem_set_unit]
  exact Iff.rfl

/-- Every index (g, row, column) of the output lies in the tile (g, row / 1024), which some point writes. -/
theorem covered3 (i : S4x4096x16.Idx) :
    ∃ t : Fin cfg3.N, (cfg3.win 2).flush t = true ∧ i ∈ ((cfg3.win 2).blk t).view.set := by
  have hi0 : (i 0).val < 4 := (i 0).isLt
  have hi1 : (i 1).val < 4096 := (i 1).isLt
  have hi2 : (i 2).val < 16 := (i 2).isLt
  obtain ⟨t, ht⟩ := idx_onto3 ⟨(i 0).val, hi0⟩ ⟨(i 1).val / 1024, by omega⟩
  have q0 : win3_2.index t (0 : Fin 3) = (i 0).val := congrFun ht 0
  have q1 : win3_2.index t (1 : Fin 3) = (i 1).val / 1024 := congrFun ht 1
  have q2 : win3_2.index t (2 : Fin 3) = 0 := congrFun ht 2
  refine ⟨t, flush3_2 t, ?_⟩
  rw [mem_blk3]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 1024 ≤ (i 1).val ∧ (i 1).val < win3_2.index t (1 : Fin 3) * 1024 + 1024; omega
  | ⟨2, _⟩ => show win3_2.index t (2 : Fin 3) * 16 ≤ (i 2).val ∧ (i 2).val < win3_2.index t (2 : Fin 3) * 16 + 16; omega

/-- The output array after the region: the batched product of the adjacency with the matrix the previous region left. -/
theorem final3 (c : Dev nD) :
    (Rg.dat3 (F := Ideal) V c).arrAt 2 cfg3.N
      = Cert.Spec.bmm (B := 4) (M := 4096) (K := 4096) (N := 16) (V c main_arg1) (V c main_v2) :=
  (Rg.dat3 (F := Ideal) V c).arrAt_eq_of_cover 2 (G3 V c) (fun t _ => flushed3_eq V c t) covered3

end Cert.KernelIdeal.Fin

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.PayloadGram.lean ====
/-
  The reconstruction kernel read at an entry.

  The last kernel receives two blocks of 2048 embedding rows (16 numbers each) with a leading axis of extent one. It
  drops that axis, divides every row by its Euclidean length — the square root of the sum of the squares of its
  entries, kept as a column and spread back over the row — and multiplies the first normalised block by the transpose
  of the second into a zero accumulator. Read over the extended reals at the entry (u, p, q) of the stored block, the
  value is the inner product of the unit row p of the first block with the unit row q of the second,

      Σ_{d < 16} (a[0,p,d] / √(Σ_e a[0,p,e]²)) · (b[0,q,d] / √(Σ_e b[0,q,e]²)).
-/
import proofs.«146742_j70884140253432_2_alg».proof.Proof.Gen.KernelIdeal.Skeleton
import proofs.«146742_j70884140253432_2_alg».proof.Proof.LibMatmulNT
import proofs.«146742_j70884140253432_2_alg».proof.Proof.LibKeepdimsColumn
import proofs.«146742_j70884140253432_2_alg».proof.Proof.LibSlabLayout
import Idealize.ShloMosaic.Lib.ValueLayout
import Idealize.ShloMosaic.Lib.ValueIdx
import Idealize.ShloMosaic.PureOps.Ideal.Laws

noncomputable section

open scoped BigOperators

namespace Cert.KernelIdeal.PayloadEntries

open Cert.KernelIdeal Cert.KernelIdeal.Gen Idealize.ShloMosaic Idealize.ShloMosaic.ValueIdx

/-- An [a, b] array whose every row is divided by the square root of the sum of its squares — the sum taken along the
    row from the zero word, kept as a column [a, 1] and spread back to [a, b]: at (p, d) the entry over its row's length. -/
theorem unitRow_entry {a b : Nat} (x : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩)
    (hbc : (⟨2, ![a, 1]⟩ : Shape).Broadcasts ⟨2, ![a, b]⟩)
    (hφ : FKind.Formats .f32) (hacc : (0x00000000#32 : BitVec FTy.f32.bits) = FKind.add.neutral .f32 hφ)
    (p : Fin a) (d : Fin b) :
    divf x (broadcastTo ⟨2, ![a, b]⟩ (sqrt (shapeCast ⟨2, ![a, 1]⟩
        (multiReduction .add [(1 : Fin 2)] ⟨1, ![a]⟩ (mulf x x) 0x00000000#32 hred hφ hacc) hcast)) hbc) (ix2 p d)
      = Ideal.div (x (ix2 p d)) (Ideal.sqrt (∑ e : Fin b, x (ix2 p e) * x (ix2 p e))) := by
  show Ideal.div (x (ix2 p d)) (broadcastTo ⟨2, ![a, b]⟩ _ hbc (ix2 p d)) = _
  refine congrArg (Ideal.div (x (ix2 p d))) ?_
  refine (Cert.KeepdimsColumn.broadcastTo_a1_ab_apply _ hbc p d).trans ?_
  show Ideal.sqrt (shapeCast ⟨2, ![a, 1]⟩ _ hcast (ix2 p (0 : Fin 1))) = _
  refine congrArg Ideal.sqrt ?_
  refine (Cert.KeepdimsColumn.shapeCast_a_a1_apply _ hcast p 0).trans ?_
  exact Cert.SlabLayout.rowSum_apply (mulf x x) _ hred hφ hacc p

/-- The same for a block carried with a leading unit axis that is dropped first: at (p, d) the block's entry (0, p, d)
    over the length of the block's row (0, p, ·). -/
theorem unitRowOfBlock_entry {a b : Nat} (w : (⟨3, ![1, a, b]⟩ : Shape).Idx → EReal)
    (hw : (⟨3, ![1, a, b]⟩ : Shape).ShapeCasts ⟨2, ![a, b]⟩)
    (hred : (⟨2, ![a, b]⟩ : Shape).Reduces [(1 : Fin 2)] ⟨1, ![a]⟩)
    (hcast : (⟨1, ![a]⟩ : Shape).ShapeCasts ⟨2, ![a, 1]⟩)
    (hbc : (⟨2, ![a, 1]⟩ : Shape).Broadcasts ⟨2, ![a, b]⟩)
    (hφ : FKind.Formats .f32) (hacc : (0x00000000#32 : BitVec FTy.f32.bits) = FKind.add.neutral .f32 hφ)
    (p : Fin a) (d : Fin b) :
    divf (F := Ideal) (φ := .f32) (shapeCast ⟨2, ![a, b]⟩ w hw) (broadcastTo ⟨2, ![a, b]⟩ (sqrt (shapeCast ⟨2, ![a, 1]⟩
        (multiReduction .add [(1 : Fin 2)] ⟨1, ![a]⟩
          (mulf (F := Ideal) (φ := .f32) (shapeCast ⟨2, ![a, b]⟩ w hw) (shapeCast ⟨2, ![a, b]⟩ w hw))
          0x00000000#32 hred hφ hacc) hcast)) hbc) (ix2 p d)
      = Ideal.div (w (ix3 (0 : Fin 1) p d))
          (Ideal.sqrt (∑ e : Fin b, w (ix3 (0 : Fin 1) p e) * w (ix3 (0 : Fin 1) p e))) := by
  have hx : ∀ e : Fin b, shapeCast ⟨2, ![a, b]⟩ w hw (ix2 p e) = w (ix3 (0 : Fin 1) p e) :=
    fun e => shapeCast_1ab_ab_apply w hw p e
  refine (unitRow_entry (shapeCast ⟨2, ![a, b]⟩ w hw) hred hcast hbc hφ hacc p d).trans ?_
  rw [hx d]
  refine congrArg (fun s => Ideal.div (w (ix3 (0 : Fin 1) p d)) (Ideal.sqrt s)) ?_
  exact Finset.sum_congr rfl fun e _ => by rw [hx e]

/-- The last kernel's block: the inner product of unit row p of the first block with unit row q of the second. -/
theorem pay4_entry (v0 v2 : Vec Ideal S1x2048x16 .f32) (u : Fin 1) (p q : Fin 2048) :
    k4_pay1 (F := Ideal) v0 v2 (ix3 u p q)
      = ∑ d : Fin 16, Ideal.div (v0 (ix3 (0 : Fin 1) p d)) (Ideal.sqrt (∑ e : Fin 16, v0 (ix3 (0 : Fin 1) p e) * v0 (ix3 (0 : Fin 1) p e)))
                      * Ideal.div (v2 (ix3 (0 : Fin 1) q d)) (Ideal.sqrt (∑ e : Fin 16, v2 (ix3 (0 : Fin 1) q e) * v2 (ix3 (0 : Fin 1) q e))) := by
  unfold k4_pay1
  refine (shapeCast_ab_1ab_apply _ _ u p q).trans ?_
  refine (Cert.MatmulNT.matmul_zero_apply _ rfl none _ _ p q).trans ?_
  refine Finset.sum_congr rfl fun d _ => ?_
  exact congrArg₂ (· * ·)
    (unitRowOfBlock_entry v0 _ _ _ _ _ _ p d)
    (unitRowOfBlock_entry v2 _ _ _ _ _ _ q d)

end Cert.KernelIdeal.PayloadEntries

end
-- ==== Proof.Final4.lean ====
/-
  The decoder's output array after its region, as one function of the embeddings the region finds.

  The region's grid has 4 · 2 · 2 points (graph g, row tile r, column tile s). At a point the first input window holds
  rows 2048·r … 2048·r + 2047 of graph g's embeddings, the second holds rows 2048·s … 2048·s + 2047 of the same graph,
  and the body writes the 2048 by 2048 tile of inner products of the unit-length rows, which the point writes back to
  the tile (g, r, s) of the output. An entry (p, q) of that tile is therefore the entry (g, 2048·r + p, 2048·s + q) of
  the matrix of inner products of the unit rows of the whole array. The sixteen tiles fill the output, so after the
  region the output array is that matrix.
-/
import proofs.«146742_j70884140253432_2_alg».proof.Proof.Region4
import proofs.«146742_j70884140253432_2_alg».proof.Proof.PayloadGram
import proofs.«146742_j70884140253432_2_alg».proof.Proof.Spec
import Idealize.ShloMosaic.Lib.Pipeline.Value
import Idealize.ShloMosaic.Lib.ValueIdx

noncomputable section

open scoped BigOperators

namespace Cert.KernelIdeal.Fin

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros4 : (![0, 0, 0] : Fin 3 → Nat) = fun _ => 0 := funext fun a => by fin_cases a <;> rfl

/-- The output array where the region's tiles cover it: the inner products of the unit rows of the embeddings. -/
abbrev G4 (c : Dev nD) : Cert.Spec.A3 4 4096 4096 :=
  Cert.Spec.gram (Cert.Spec.unitRows (V c main_v3 : Cert.Spec.A3 4 4096 16))

/-- One tile: if the two loaded blocks are the row tiles r and s of graph g of an array Z, the body's payload at
    (u, p, q) is the inner product of the unit rows 2048·r + p and 2048·s + q of graph g of Z. -/
theorem tile4_entry (Z : Cert.Spec.A3 4 4096 16) (x0 x1 : Vec Ideal S1x2048x16 .f32) (g : Fin 4) (r s : Fin 2)
    (h0 : ∀ (p : Fin 2048) (d : Fin 16), x0 (ix3 (0 : Fin 1) p d) = Z (ix3 g ⟨r.val * 2048 + p.val, by omega⟩ d))
    (h1 : ∀ (q : Fin 2048) (d : Fin 16), x1 (ix3 (0 : Fin 1) q d) = Z (ix3 g ⟨s.val * 2048 + q.val, by omega⟩ d))
    (u : Fin 1) (p q : Fin 2048) :
    k4_pay1 (F := Ideal) x0 x1 (ix3 u p q)
      = Cert.Spec.gram (Cert.Spec.unitRows Z) (ix3 g ⟨r.val * 2048 + p.val, by omega⟩ ⟨s.val * 2048 + q.val, by omega⟩) := by
  rw [Cert.KernelIdeal.PayloadEntries.pay4_entry, Cert.Spec.gram_apply]
  refine Finset.sum_congr rfl fun d _ => ?_
  rw [Cert.Spec.unitRows_apply, Cert.Spec.unitRows_apply]
  simp only [h0, h1]

/-- The printed index maps over the sixteen points: the first input moves with the output's graph and row tile, the
    second with its graph and COLUMN tile, both at feature block 0; and the output's block indices stay in range. -/
theorem idx_facts4 : ∀ t : Fin cfg4.N,
      win4_0.index t (0 : Fin 3) = win4_2.index t (0 : Fin 3) ∧ win4_0.index t (1 : Fin 3) = win4_2.index t (1 : Fin 3)
    ∧ win4_0.index t (2 : Fin 3) = 0
    ∧ win4_1.index t (0 : Fin 3) = win4_2.index t (0 : Fin 3) ∧ win4_1.index t (1 : Fin 3) = win4_2.index t (2 : Fin 3)
    ∧ win4_1.index t (2 : Fin 3) = 0
    ∧ win4_2.index t (0 : Fin 3) ≤ 3 ∧ win4_2.index t (1 : Fin 3) ≤ 1 ∧ win4_2.index t (2 : Fin 3) ≤ 1 :=
  (by decide +kernel : ∀ t : Fin grid4.N, _)

/-- Every tile (g, r, s) of the output is some point's. -/
theorem idx_onto4 : ∀ (q0 : Fin 4) (q1 : Fin 2) (q2 : Fin 2), ∃ t : Fin cfg4.N, win4_2.index t = ![q0.val, q1.val, q2.val] :=
  (by decide +kernel : ∀ (q0 : Fin 4) (q1 : Fin 2) (q2 : Fin 2), ∃ t : Fin grid4.N, win4_2.index t = ![q0.val, q1.val, q2.val])

/-- The first input window's block at point t: rows of the embeddings of the output tile's graph and row tile. -/
theorem iblk4_0_apply (c : Dev nD) (t : Fin cfg4.N) (g : Fin 4) (r : Fin 2)
    (hg : win4_2.index t (0 : Fin 3) = g.val) (hr : win4_2.index t (1 : Fin 3) = r.val) (p : Fin 2048) (d : Fin 16) :
    (Rg.iblk4 V c 0 t : Vec Ideal S1x2048x16 .f32) (ix3 (0 : Fin 1) p d)
      = (V c main_v3 : Cert.Spec.A3 4 4096 16) (ix3 g ⟨r.val * 2048 + p.val, by omega⟩ d) := by
  obtain ⟨e0, e1, e2, -, -, -, -, -, -⟩ := idx_facts4 t
  unfold Rg.iblk4
  rw [View.read_apply]
  show V c main_v3 _ = V c main_v3 _
  congr 1
  funext a
  apply Fin.ext
  match a with
  | ⟨0, _⟩ => show win4_0.index t (0 : Fin 3) * 1 + 1 * 0 = g.val; omega
  | ⟨1, _⟩ => show win4_0.index t (1 : Fin 3) * 2048 + 1 * p.val = r.val * 2048 + p.val; omega
  | ⟨2, _⟩ => show win4_0.index t (2 : Fin 3) * 16 + 1 * d.val = d.val; omega

/-- The second input window's block at point t: rows of the same graph, of the output tile's column tile. -/
theorem iblk4_1_apply (c : Dev nD) (t : Fin cfg4.N) (g : Fin 4) (s : Fin 2)
    (hg : win4_2.index t (0 : Fin 3) = g.val) (hs : win4_2.index t (2 : Fin 3) = s.val) (q : Fin 2048) (d : Fin 16) :
    (Rg.iblk4 V c 1 t : Vec Ideal S1x2048x16 .f32) (ix3 (0 : Fin 1) q d)
      = (V c main_v3 : Cert.Spec.A3 4 4096 16) (ix3 g ⟨s.val * 2048 + q.val, by omega⟩ d) := by
  obtain ⟨-, -, -, e0, e1, e2, -, -, -⟩ := idx_facts4 t
  unfold Rg.iblk4
  rw [View.read_apply]
  show V c main_v3 _ = V c main_v3 _
  congr 1
  funext a
  apply Fin.ext
  match a with
  | ⟨0, _⟩ => show win4_1.index t (0 : Fin 3) * 1 + 1 * 0 = g.val; omega
  | ⟨1, _⟩ => show win4_1.index t (1 : Fin 3) * 2048 + 1 * q.val = s.val * 2048 + q.val; omega
  | ⟨2, _⟩ => show win4_1.index t (2 : Fin 3) * 16 + 1 * d.val = d.val; omega

/-- What point t writes back is tile t of the matrix of inner products. -/
theorem flushed4_eq (c : Dev nD) (t : Fin cfg4.N) :
    (Rg.dat4 (F := Ideal) V c).flushed 2 t = ((cfg4.win 2).blk t).view.read (Elt Ideal) (G4 V c) := by
  show (cfg4.win 2).cut (grid4.coords t) ((Rg.dat4 (F := Ideal) V c).after 2 t) = _
  rw [Rg.after4_2]
  unfold Rg.out4
  rw [View.canon_unit_zero zeros4]
  simp only [View.ld_unit_zero (S := S1x2048x16) zeros4]
  obtain ⟨-, -, -, -, -, -, b0, b1, b2⟩ := idx_facts4 t
  funext j
  obtain ⟨u, p, q, rfl⟩ : ∃ (u : Fin 1) (p : Fin 2048) (q : Fin 2048), j = ix3 u p q := ⟨j 0, j 1, j 2, eq_ix3 j⟩
  have key := tile4_entry (V c main_v3 : Cert.Spec.A3 4 4096 16) (Rg.iblk4 V c 0 t) (Rg.iblk4 V c 1 t)
    ⟨win4_2.index t (0 : Fin 3), by omega⟩ ⟨win4_2.index t (1 : Fin 3), by omega⟩ ⟨win4_2.index t (2 : Fin 3), by omega⟩
    (iblk4_0_apply V c t ⟨win4_2.index t (0 : Fin 3), by omega⟩ ⟨win4_2.index t (1 : Fin 3), by omega⟩ rfl rfl)
    (iblk4_1_apply V c t ⟨win4_2.index t (0 : Fin 3), by omega⟩ ⟨win4_2.index t (2 : Fin 3), by omega⟩ rfl rfl) u p q
  refine key.trans ?_
  rw [View.read_apply]
  refine congrArg (G4 V c) ?_
  funext a
  apply Fin.ext
  have hu : u.val = 0 := by omega
  match a with
  | ⟨0, _⟩ => show win4_2.index t (0 : Fin 3) = win4_2.index t (0 : Fin 3) * 1 + 1 * u.val; omega
  | ⟨1, _⟩ => show win4_2.index t (1 : Fin 3) * 2048 + p.val = win4_2.index t (1 : Fin 3) * 2048 + 1 * p.val; omega
  | ⟨2, _⟩ => show win4_2.index t (2 : Fin 3) * 2048 + q.val = win4_2.index t (2 : Fin 3) * 2048 + 1 * q.val; omega

/-- An index of the output array is in point t's tile iff each coordinate is in the tile's range on its axis. -/
theorem mem_blk4 (t : Fin cfg4.N) (i : S4x4096x4096.Idx) :
    i ∈ ((cfg4.win 2).blk t).view.set ↔ ∀ a : Fin 3, win4_2.index t a * S1x2048x2048.size a ≤ (i a).val
      ∧ (i a).val < win4_2.index t a * S1x2048x2048.size a + S1x2048x2048.size a := by
  show i ∈ ((View.whole main_v4).slice (win4_2.rect t)).set ↔ _
  rw [View.set_slice_whole, Rect.mem_set_unit]
  exact Iff.rfl

/-- Every index (g, row, column) of the output lies in the tile (g, row / 2048, column / 2048), which some point writes. -/
theorem covered4 (i : S4x4096x4096.Idx) :
    ∃ t : Fin cfg4.N, (cfg4.win 2).flush t = true ∧ i ∈ ((cfg4.win 2).blk t).view.set := by
  have hi0 : (i 0).val < 4 := (i 0).isLt
  have hi1 : (i 1).val < 4096 := (i 1).isLt
  have hi2 : (i 2).val < 4096 := (i 2).isLt
  obtain ⟨t, ht⟩ := idx_onto4 ⟨(i 0).val, hi0⟩ ⟨(i 1).val / 2048, by omega⟩ ⟨(i 2).val / 2048, by omega⟩
  have q0 : win4_2.index t (0 : Fin 3) = (i 0).val := congrFun ht 0
  have q1 : win4_2.index t (1 : Fin 3) = (i 1).val / 2048 := congrFun ht 1
  have q2 : win4_2.index t (2 : Fin 3) = (i 2).val / 2048 := congrFun ht 2
  refine ⟨t, flush4_2 t, ?_⟩
  rw [mem_blk4]
  intro a
  match a with
  | ⟨0, _⟩ => show win4_2.index t (0 : Fin 3) * 1 ≤ (i 0).val ∧ (i 0).val < win4_2.index t (0 : Fin 3) * 1 + 1; omega
  | ⟨1, _⟩ => show win4_2.index t (1 : Fin 3) * 2048 ≤ (i 1).val ∧ (i 1).val < win4_2.index t (1 : Fin 3) * 2048 + 2048; omega
  | ⟨2, _⟩ => show win4_2.index t (2 : Fin 3) * 2048 ≤ (i 2).val ∧ (i 2).val < win4_2.index t (2 : Fin 3) * 2048 + 2048; omega

/-- The output array after the region: the inner products of the unit rows of the embeddings the region found. -/
theorem final4 (c : Dev nD) :
    (Rg.dat4 (F := Ideal) V c).arrAt 2 cfg4.N = Cert.Spec.gram (Cert.Spec.unitRows (V c main_v3)) :=
  (Rg.dat4 (F := Ideal) V c).arrAt_eq_of_cover 2 (G4 V c) (fun t _ => flushed4_eq V c t) covered4

end Cert.KernelIdeal.Fin

end
-- ==== Proof.Values.lean ====
/-
  The idealized kernel's result is the specification.

  Each of the five regions leaves in its output array one step of the specification applied to the arrays it reads: the
  batched product of the features and the first weights; the adjacency times that, clamped at zero; the product with the
  second weights; the adjacency times that; the inner products of the rows scaled to unit length. Every region reads the
  arguments as launched (no region writes one) and the earlier regions' results as those regions left them, so the
  result's buffer after the last region is the composition, `Cert.Spec.recon` of the four arguments.
-/
import proofs.«146742_j70884140253432_2_alg».proof.Proof.Run
import proofs.«146742_j70884140253432_2_alg».proof.Proof.Final0
import proofs.«146742_j70884140253432_2_alg».proof.Proof.Final1
import proofs.«146742_j70884140253432_2_alg».proof.Proof.Final2
import proofs.«146742_j70884140253432_2_alg».proof.Proof.Final3
import proofs.«146742_j70884140253432_2_alg».proof.Proof.Final4

noncomputable section

namespace Cert.KernelIdeal.Rg

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- What the last region leaves in the result's array is the specification of the four arguments as launched. -/
theorem result_eq (c : Dev nD) :
    (dat4 (F := Ideal) (V4 m ρ) c).arrAt 2 cfg4.N
      = Cert.Spec.recon (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Fin.final4 (V4 m ρ) c, V4_main_v3 m ρ c,
    Cert.KernelIdeal.Fin.final3 (V3 m ρ) c, V3_main_arg1 m ρ c, V3_main_v2 m ρ c,
    Cert.KernelIdeal.Whole.final2 (V2 m ρ) c, V2_main_arg3 m ρ c, V2_main_v1 m ρ c,
    Cert.KernelIdeal.Whole.final1 (V1 m ρ) c, V1_main_arg1 m ρ c, V1_main_v0 m ρ c,
    Cert.KernelIdeal.Whole.final0 (V0 m ρ) c]
  rfl

/-- The idealized kernel's run with its result named: every weakly fair execution terminates, nothing faulting, with the
    result's buffer at the specification of the arguments and the arguments unchanged. -/
theorem run_spec : θ_run defs (onTc (τ := τ) (main (F := Ideal))) ⟨m, fun _ => 0, ρ⟩ (fun r => ∀ c : Dev nD,
      r.2.mem ((c.tc : Thread nD τ).loc main_v4)
        = Cert.Spec.recon (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (run_all (F := Ideal) m ρ)

end Cert.KernelIdeal.Rg

end
-- ==== Proof.RefSpec.lean ====
/-
  The reference computes the specification.

  The reference program is a chain of whole-array operations: four batched matrix products, a clamp at zero, a
  division of every row by its Euclidean length, and the inner products of the resulting rows. Each operation, read
  at one entry `(g, p, q)`, is the corresponding step of `Cert.Spec` applied to the previous array: a matrix product is
  the sum over the contracted coordinate, the clamp is `max` with the zero word, the row length is the square root of
  the sum of the row's squares (the sum starts from the zero word, which is the real number zero), and the last
  product contracts the embedding coordinate of two rows of the same graph. Composing the seven equalities gives
  `recon`. Nothing here depends on the entries being finite: no law of arithmetic is used beyond `0 + s = s`.
-/
import proofs.«146742_j70884140253432_2_alg».proof.Proof.Spec
import proofs.«146742_j70884140253432_2_alg».proof.Proof.Gen.ReferenceIdeal.Read

noncomputable section

open scoped BigOperators

namespace Cert.RefSpec

open Cert.ReferenceIdeal Idealize.ShloMosaic Idealize.ShloMosaic.ValueIdx

/-- The features times the first weights: entry `(g, p, q)` sums `x[g,p,k] · w1[g,k,q]` over the 128 features. -/
theorem v0_eq (x0 : (⟨S4x4096x128, .f32⟩ : BufTy).Contents (Elt Ideal)) (x2 : (⟨S4x128x64, .f32⟩ : BufTy).Contents (Elt Ideal)) :
    Read.val_main_v0 (F := Ideal) x0 x2 = Spec.bmm (B := 4) (M := 4096) (K := 128) (N := 64) x0 x2 := by
  funext i
  obtain ⟨g, p, q, rfl⟩ : ∃ (g : Fin 4) (p : Fin 4096) (q : Fin 64), i = ix3 g p q := ⟨i 0, i 1, i 2, eq_ix3 i⟩
  refine (Read.val_main_v0_apply x0 x2 (ix3 g p q)).trans ?_
  refine (Finset.sum_congr rfl fun k _ => ?_).trans (Spec.bmm_apply (B := 4) (M := 4096) (K := 128) (N := 64) x0 x2 g p q).symm
  have el : Read.lidx_main_v0 (ix3 g p q) k = ix3 g p k :=
    funext fun a => Fin.ext (by match a with | ⟨0, _⟩ => rfl | ⟨1, _⟩ => rfl | ⟨2, _⟩ => rfl)
  have er : Read.ridx_main_v0 (ix3 g p q) k = ix3 g k q :=
    funext fun a => Fin.ext (by match a with | ⟨0, _⟩ => rfl | ⟨1, _⟩ => rfl | ⟨2, _⟩ => rfl)
  rw [el, er]

/-- The adjacency times that product: entry `(g, p, q)` sums `adj[g,p,k] · s[g,k,q]` over the 4096 nodes. -/
theorem v1_eq (x0 : (⟨S4x4096x128, .f32⟩ : BufTy).Contents (Elt Ideal)) (x1 : (⟨S4x4096x4096, .f32⟩ : BufTy).Contents (Elt Ideal))
    (x2 : (⟨S4x128x64, .f32⟩ : BufTy).Contents (Elt Ideal)) :
    Read.val_main_v1 (F := Ideal) x0 x1 x2
      = Spec.bmm (B := 4) (M := 4096) (K := 4096) (N := 64) x1 (Read.val_main_v0 (F := Ideal) x0 x2) := by
  funext i
  obtain ⟨g, p, q, rfl⟩ : ∃ (g : Fin 4) (p : Fin 4096) (q : Fin 64), i = ix3 g p q := ⟨i 0, i 1, i 2, eq_ix3 i⟩
  refine (Read.val_main_v1_apply x0 x1 x2 (ix3 g p q)).trans ?_
  refine (Finset.sum_congr rfl fun k _ => ?_).trans
    (Spec.bmm_apply (B := 4) (M := 4096) (K := 4096) (N := 64) x1 (Read.val_main_v0 (F := Ideal) x0 x2) g p q).symm
  have el : Read.lidx_main_v1 (ix3 g p q) k = ix3 g p k :=
    funext fun a => Fin.ext (by match a with | ⟨0, _⟩ => rfl | ⟨1, _⟩ => rfl | ⟨2, _⟩ => rfl)
  have er : Read.ridx_main_v1 (ix3 g p q) k = ix3 g k q :=
    funext fun a => Fin.ext (by match a with | ⟨0, _⟩ => rfl | ⟨1, _⟩ => rfl | ⟨2, _⟩ => rfl)
  rw [el, er]

/-- The first layer's clamp: every entry is its maximum with the zero word. -/
theorem v2_eq (x0 : (⟨S4x4096x128, .f32⟩ : BufTy).Contents (Elt Ideal)) (x1 : (⟨S4x4096x4096, .f32⟩ : BufTy).Contents (Elt Ideal))
    (x2 : (⟨S4x128x64, .f32⟩ : BufTy).Contents (Elt Ideal)) :
    Read.val_main_v2 (F := Ideal) x0 x1 x2
      = Spec.relu0 (B := 4) (M := 4096) (N := 64) (Read.val_main_v1 (F := Ideal) x0 x1 x2) := by
  funext i
  refine (Read.val_main_v2_apply x0 x1 x2 i).trans ?_
  rw [Read.val_main_call0_v0_apply, Read.val_main_call0_cst_apply]
  rfl

/-- The hidden layer times the second weights: entry `(g, p, q)` sums `h[g,p,k] · w2[g,k,q]` over the 64 hidden units. -/
theorem v3_eq (x0 : (⟨S4x4096x128, .f32⟩ : BufTy).Contents (Elt Ideal)) (x1 : (⟨S4x4096x4096, .f32⟩ : BufTy).Contents (Elt Ideal))
    (x2 : (⟨S4x128x64, .f32⟩ : BufTy).Contents (Elt Ideal)) (x3 : (⟨S4x64x16, .f32⟩ : BufTy).Contents (Elt Ideal)) :
    Read.val_main_v3 (F := Ideal) x0 x1 x2 x3
      = Spec.bmm (B := 4) (M := 4096) (K := 64) (N := 16) (Read.val_main_v2 (F := Ideal) x0 x1 x2) x3 := by
  funext i
  obtain ⟨g, p, q, rfl⟩ : ∃ (g : Fin 4) (p : Fin 4096) (q : Fin 16), i = ix3 g p q := ⟨i 0, i 1, i 2, eq_ix3 i⟩
  refine (Read.val_main_v3_apply x0 x1 x2 x3 (ix3 g p q)).trans ?_
  refine (Finset.sum_congr rfl fun k _ => ?_).trans
    (Spec.bmm_apply (B := 4) (M := 4096) (K := 64) (N := 16) (Read.val_main_v2 (F := Ideal) x0 x1 x2) x3 g p q).symm
  have el : Read.lidx_main_v3 (ix3 g p q) k = ix3 g p k :=
    funext fun a => Fin.ext (by match a with | ⟨0, _⟩ => rfl | ⟨1, _⟩ => rfl | ⟨2, _⟩ => rfl)
  have er : Read.ridx_main_v3 (ix3 g p q) k = ix3 g k q :=
    funext fun a => Fin.ext (by match a with | ⟨0, _⟩ => rfl | ⟨1, _⟩ => rfl | ⟨2, _⟩ => rfl)
  rw [el, er]

/-- The adjacency times that product: the embeddings, 16 numbers per node. -/
theorem v4_eq (x0 : (⟨S4x4096x128, .f32⟩ : BufTy).Contents (Elt Ideal)) (x1 : (⟨S4x4096x4096, .f32⟩ : BufTy).Contents (Elt Ideal))
    (x2 : (⟨S4x128x64, .f32⟩ : BufTy).Contents (Elt Ideal)) (x3 : (⟨S4x64x16, .f32⟩ : BufTy).Contents (Elt Ideal)) :
    Read.val_main_v4 (F := Ideal) x0 x1 x2 x3
      = Spec.bmm (B := 4) (M := 4096) (K := 4096) (N := 16) x1 (Read.val_main_v3 (F := Ideal) x0 x1 x2 x3) := by
  funext i
  obtain ⟨g, p, q, rfl⟩ : ∃ (g : Fin 4) (p : Fin 4096) (q : Fin 16), i = ix3 g p q := ⟨i 0, i 1, i 2, eq_ix3 i⟩
  refine (Read.val_main_v4_apply x0 x1 x2 x3 (ix3 g p q)).trans ?_
  refine (Finset.sum_congr rfl fun k _ => ?_).trans
    (Spec.bmm_apply (B := 4) (M := 4096) (K := 4096) (N := 16) x1 (Read.val_main_v3 (F := Ideal) x0 x1 x2 x3) g p q).symm
  have el : Read.lidx_main_v4 (ix3 g p q) k = ix3 g p k :=
    funext fun a => Fin.ext (by match a with | ⟨0, _⟩ => rfl | ⟨1, _⟩ => rfl | ⟨2, _⟩ => rfl)
  have er : Read.ridx_main_v4 (ix3 g p q) k = ix3 g k q :=
    funext fun a => Fin.ext (by match a with | ⟨0, _⟩ => rfl | ⟨1, _⟩ => rfl | ⟨2, _⟩ => rfl)
  rw [el, er]

/-- The row normalisation: entry `(g, p, d)` of the embeddings divided by the square root of the sum of the squares of
    row `(g, p, ·)`. The sum is taken from the zero word, which is the number zero. -/
theorem v7_eq (x0 : (⟨S4x4096x128, .f32⟩ : BufTy).Contents (Elt Ideal)) (x1 : (⟨S4x4096x4096, .f32⟩ : BufTy).Contents (Elt Ideal))
    (x2 : (⟨S4x128x64, .f32⟩ : BufTy).Contents (Elt Ideal)) (x3 : (⟨S4x64x16, .f32⟩ : BufTy).Contents (Elt Ideal)) :
    Read.val_main_v7 (F := Ideal) x0 x1 x2 x3
      = Spec.unitRows (B := 4) (M := 4096) (D := 16) (Read.val_main_v4 (F := Ideal) x0 x1 x2 x3) := by
  funext i
  obtain ⟨g, p, d, rfl⟩ : ∃ (g : Fin 4) (p : Fin 4096) (d : Fin 16), i = ix3 g p d := ⟨i 0, i 1, i 2, eq_ix3 i⟩
  refine (Read.val_main_v7_apply x0 x1 x2 x3 (ix3 g p d)).trans ?_
  rw [Read.val_main_v6_apply, Read.val_main_v5_apply, Read.val_main_call1_v2_apply, Read.val_main_call1_v1_apply,
    Read.val_main_call1_cst_apply]
  rw [Spec.unitRows_apply, Ideal.hostDivf_def, Ideal.hostUnary_sqrt_def, Ideal.ofBits_def, Ideal.ofBits_zero_f32, zero_add]
  refine congrArg (fun s => Ideal.div _ (Ideal.sqrt s)) (Finset.sum_congr rfl fun e _ => ?_)
  have ei : Read.idx_main_call1_v1 (Read.idx_main_call1_v2 (Read.idx_main_v6 (ix3 g p d))) e = ix3 g p e :=
    funext fun a => Fin.ext (by match a with | ⟨0, _⟩ => rfl | ⟨1, _⟩ => rfl | ⟨2, _⟩ => rfl)
  rw [ei, Read.val_main_call1_v0_apply]
  rfl

/-- The decoder: entry `(g, p, q)` is the inner product of unit rows `p` and `q` of graph `g`. -/
theorem v8_eq (x0 : (⟨S4x4096x128, .f32⟩ : BufTy).Contents (Elt Ideal)) (x1 : (⟨S4x4096x4096, .f32⟩ : BufTy).Contents (Elt Ideal))
    (x2 : (⟨S4x128x64, .f32⟩ : BufTy).Contents (Elt Ideal)) (x3 : (⟨S4x64x16, .f32⟩ : BufTy).Contents (Elt Ideal)) :
    Read.val_main_v8 (F := Ideal) x0 x1 x2 x3
      = Spec.gram (B := 4) (M := 4096) (D := 16) (Read.val_main_v7 (F := Ideal) x0 x1 x2 x3) := by
  funext i
  obtain ⟨g, p, q, rfl⟩ : ∃ (g : Fin 4) (p : Fin 4096) (q : Fin 4096), i = ix3 g p q := ⟨i 0, i 1, i 2, eq_ix3 i⟩
  refine (Read.val_main_v8_apply x0 x1 x2 x3 (ix3 g p q)).trans ?_
  refine (Finset.sum_congr rfl fun k _ => ?_).trans
    (Spec.gram_apply (B := 4) (M := 4096) (D := 16) (Read.val_main_v7 (F := Ideal) x0 x1 x2 x3) g p q).symm
  have el : Read.lidx_main_v8 (ix3 g p q) k = ix3 g p k :=
    funext fun a => Fin.ext (by match a with | ⟨0, _⟩ => rfl | ⟨1, _⟩ => rfl | ⟨2, _⟩ => rfl)
  have er : Read.ridx_main_v8 (ix3 g p q) k = ix3 g q k :=
    funext fun a => Fin.ext (by match a with | ⟨0, _⟩ => rfl | ⟨1, _⟩ => rfl | ⟨2, _⟩ => rfl)
  rw [el, er]

/-- The reference's result is the specification, as one function of the four argument arrays. -/
theorem ref_eq
    (x0 : (⟨S4x4096x128, .f32⟩ : BufTy).Contents (Elt Ideal)) (x1 : (⟨S4x4096x4096, .f32⟩ : BufTy).Contents (Elt Ideal))
    (x2 : (⟨S4x128x64, .f32⟩ : BufTy).Contents (Elt Ideal)) (x3 : (⟨S4x64x16, .f32⟩ : BufTy).Contents (Elt Ideal)) :
    Cert.ReferenceIdeal.Read.val_main_v8 (F := Ideal) x0 x1 x2 x3 = Cert.Spec.recon x0 x1 x2 x3 := by
  rw [v8_eq, v7_eq, v4_eq, v3_eq, v2_eq, v1_eq, v0_eq]
  rfl

end Cert.RefSpec

end
-- ==== Proof.lean ====
/-
  A two-layer graph convolution with a unit-length embedding and an inner-product decoder, as five kernel launches,
  against the same computation written with whole-array operations.

  For a batch of four graphs with 4096 nodes each: S₁ = X·W₁, H = max(A·S₁, 0), S₂ = H·W₂, Z = A·S₂, then every row of Z
  divided by the square root of the sum of its squares, and the result R[g,p,q] = Σ_d U[g,p,d]·U[g,q,d] of the unit rows U.
  The kernel computes each of the five steps in one launch, tile by tile; the reference computes them with batched
  products, a clamp, a norm and a quotient. Over the extended reals both are the one function `Cert.Spec.recon` of
  the four arguments: every sum is the same sum (a tile of rows of a product reads only those rows), the clamp is
  against the same zero word, and square root and quotient are the same functions on both sides. No rearrangement of
  a sum across a product is needed, so the precondition is never opened.

  The frames: every launch loads two whole blocks and stores one, so it runs at every grid point; between launches
  each core holds every unscoped buffer whole, the launch's arrays being split out at its entry and put back at its
  exit. The last launch reads one array through two windows, which hold it at its two half shares. No launch writes an
  argument. The reference is a straight line of host operations.

  The idealized kernel is the printed kernel read at the extended reals (no operation was rewritten), so the
  idealization conjunct is trivial.
-/
import proofs.«146742_j70884140253432_2_alg».proof.Defs
import proofs.«146742_j70884140253432_2_alg».proof.Proof.Gen.Kernel
import proofs.«146742_j70884140253432_2_alg».proof.Proof.Gen.KernelIdeal
import proofs.«146742_j70884140253432_2_alg».proof.Proof.Gen.ReferenceIdeal
import proofs.«146742_j70884140253432_2_alg».proof.Proof.Gen.Pre_finite_inputs
import proofs.«146742_j70884140253432_2_alg».proof.Proof.Gen.ReferenceIdeal.Read
import proofs.«146742_j70884140253432_2_alg».proof.Proof.WRun
import proofs.«146742_j70884140253432_2_alg».proof.Proof.Values
import proofs.«146742_j70884140253432_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel := fun m ρ _ =>
  (θ_run Cert.Kernel.defs _ _).mono (fun _ h c => (h c).2) (Cert.Kernel.Rg.run_all (F := Bits) m ρ)

/-- So does the kernel read at the extended reals. -/
theorem frame_ki : Cert.frame_KernelIdeal := fun m ρ _ =>
  (θ_run Cert.KernelIdeal.defs _ _).mono (fun _ h c => (h c).2) (Cert.KernelIdeal.Rg.run_all (F := Ideal) m ρ)

/-- And the reference, a line of host operations. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `Cert.Spec.recon` of the arguments. -/
theorem algebraic : Cert.algebraic_KernelIdeal_ReferenceIdeal := by
  intro m ρ m' ρ' _ hagree
  refine ⟨fun c => Cert.Spec.recon
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Rg.run_spec m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefSpec.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
